-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4000x80 : Shape := ⟨3, ![64, 4000, 80]⟩
abbrev S64x4000 : Shape := ⟨2, ![64, 4000]⟩
abbrev S80 : Shape := ⟨1, ![80]⟩
abbrev S_ : Shape := ⟨0, ![]⟩

class Facts : Prop where
  bcast_S_S64x4000x80 : S_.BroadcastsInDim S64x4000x80 (![] : Fin 0 → Fin S64x4000x80.rank)
  reducesTo_S64x4000x80_S_d0_1_2 : S64x4000x80.ReducesTo [0, 1, 2] S_
  h_S_ : 0 < S_.numel
  bcast_S_S64x4000 : S_.BroadcastsInDim S64x4000 (![] : Fin 0 → Fin S64x4000.rank)
  reducesTo_S64x4000_S_d0_1 : S64x4000.ReducesTo [0, 1] S_
  bcast_S_S80 : S_.BroadcastsInDim S80 (![] : Fin 0 → Fin S80.rank)
  reducesTo_S80_S_d0 : S80.ReducesTo [0] S_

variable [Facts]

def fn_part1 {F : FTy → Type} [FloatOps F] (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  main_v18

def fn {F : FTy → Type} [FloatOps F] (main_arg0 : FVec F S64x4000x80 .f32) (main_arg1 : FVec F S64x4000x80 .f32) (main_arg2 : FVec F S64x4000 .f32) (main_arg3 : FVec F S80 .f32) : IVec S_ 1 :=
  let main_v0 : FVec F S64x4000x80 .f32 := Host.absf main_arg0
  let main_cst : FVec F S_ .f32 := constant S_ .f32 0x7F800000#32
  let main_v1 : FVec F S64x4000x80 .f32 := broadcastInDim S64x4000x80 ![] bcast_S_S64x4000x80 main_cst
  let main_v2 : IVec S64x4000x80 1 := cmpf .olt main_v0 main_v1
  let main_c : IVec S_ 1 := constantI S_ 1 1#1
  let main_v3 : IVec S_ 1 := (fun x v => Host.reduce IntOp.andi x v reducesTo_S64x4000x80_S_d0_1_2 h_S_) main_v2 main_c
  let main_v4 : FVec F S64x4000x80 .f32 := Host.absf main_arg1
  let main_cst_0 : FVec F S_ .f32 := constant S_ .f32 0x7F800000#32
  let main_v5 : FVec F S64x4000x80 .f32 := broadcastInDim S64x4000x80 ![] bcast_S_S64x4000x80 main_cst_0
  let main_v6 : IVec S64x4000x80 1 := cmpf .olt main_v4 main_v5
  let main_c_1 : IVec S_ 1 := constantI S_ 1 1#1
  let main_v7 : IVec S_ 1 := (fun x v => Host.reduce IntOp.andi x v reducesTo_S64x4000x80_S_d0_1_2 h_S_) main_v6 main_c_1
  let main_v8 : IVec S_ 1 := andi main_v3 main_v7
  let main_v9 : FVec F S64x4000 .f32 := Host.absf main_arg2
  let main_cst_2 : FVec F S_ .f32 := constant S_ .f32 0x7F800000#32
  let main_v10 : FVec F S64x4000 .f32 := broadcastInDim S64x4000 ![] bcast_S_S64x4000 main_cst_2
  let main_v11 : IVec S64x4000 1 := cmpf .olt main_v9 main_v10
  let main_c_3 : IVec S_ 1 := constantI S_ 1 1#1
  let main_v12 : IVec S_ 1 := (fun x v => Host.reduce IntOp.andi x v reducesTo_S64x4000_S_d0_1 h_S_) main_v11 main_c_3
  let main_v13 : IVec S_ 1 := andi main_v8 main_v12
  let main_v14 : FVec F S80 .f32 := Host.absf main_arg3
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_v13 main_v16
-- ==== Kernel.lean ====
abbrev S64x4000x80 : Shape := ⟨3, ![64, 4000, 80]⟩
abbrev S64x4000 : Shape := ⟨2, ![64, 4000]⟩
abbrev S80 : Shape := ⟨1, ![80]⟩
abbrev S_ : Shape := ⟨0, ![]⟩
abbrev S1x1 : Shape := ⟨2, ![1, 1]⟩
abbrev S64x4000x1 : Shape := ⟨3, ![64, 4000, 1]⟩
abbrev S1x1x80 : Shape := ⟨3, ![1, 1, 80]⟩
abbrev S1x4000x80 : Shape := ⟨3, ![1, 4000, 80]⟩
abbrev S1x4000x1 : Shape := ⟨3, ![1, 4000, 1]⟩
abbrev S8x128 : Shape := ⟨2, ![8, 128]⟩
abbrev S1x80 : Shape := ⟨2, ![1, 80]⟩
abbrev S1x1x1 : Shape := ⟨3, ![1, 1, 1]⟩
abbrev S1x3999x80 : Shape := ⟨3, ![1, 3999, 80]⟩
abbrev S1x3999x1 : Shape := ⟨3, ![1, 3999, 1]⟩
abbrev S1x3998x80 : Shape := ⟨3, ![1, 3998, 80]⟩
abbrev S1x3998x1 : Shape := ⟨3, ![1, 3998, 1]⟩
abbrev S1x4000 : Shape := ⟨2, ![1, 4000]⟩

abbrev nBuf : Space → Nat
  | .hbm => 13
  | .vmem => 10
  | .smem => 0
  | _ => 0

abbrev bufTy : (tb : Table) → Fin (tcTables nBuf tb) → BufTy
  | .hbm, ⟨0, _⟩ => ⟨S64x4000x80, .f32⟩
  | .hbm, ⟨1, _⟩ => ⟨S64x4000x80, .f32⟩
  | .hbm, ⟨2, _⟩ => ⟨S64x4000, .f32⟩
  | .hbm, ⟨3, _⟩ => ⟨S80, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S64x4000x1, .f32⟩
  | .hbm, ⟨10, _⟩ => ⟨S1x1x80, .f32⟩
  | .hbm, ⟨11, _⟩ => ⟨S1x1, .f32⟩
  | .hbm, ⟨12, _⟩ => ⟨S_, .f32⟩
  | .local _ .vmem, ⟨0, _⟩ => ⟨S1x4000x80, .f32⟩
  | .local _ .vmem, ⟨1, _⟩ => ⟨S1x4000x80, .f32⟩
  | .local _ .vmem, ⟨2, _⟩ => ⟨S1x4000x80, .f32⟩
  | .local _ .vmem, ⟨3, _⟩ => ⟨S1x4000x80, .f32⟩
  | .local _ .vmem, ⟨4, _⟩ => ⟨S1x4000x1, .f32⟩
  | .local _ .vmem, ⟨5, _⟩ => ⟨S1x4000x1, .f32⟩
  | .local _ .vmem, ⟨6, _⟩ => ⟨S1x1x80, .f32⟩
  | .local _ .vmem, ⟨7, _⟩ => ⟨S1x1, .f32⟩
  | .local _ .vmem, ⟨8, _⟩ => ⟨S1x1, .f32⟩
  | .local _ .vmem, ⟨9, _⟩ => ⟨S8x128, .f32⟩
  | _, _ => ⟨S64x4000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v179 : BitVec 1 := Scalar.cmpi .eq arg0 c63_i32
  let v180 : BitVec 32 := Scalar.extui v179
  let c0_i32_74 : BitVec 32 := 0#32
  let v181 : BitVec 1 := Scalar.cmpi .ne v180 c0_i32_74
  v181

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4000x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  reducesTo_S80_S_d0 : S80.ReducesTo [0] S_
  h_S_ : 0 < S_.numel
  shapeCasts_S_S1x1 : S_.ShapeCasts S1x1
  shapeCasts_S64x4000_S64x4000x1 : S64x4000.ShapeCasts S64x4000x1
  shapeCasts_S80_S1x1x80 : S80.ShapeCasts S1x1x80
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x4000x80_S1x4000x80_0_0_0 : ∀ a, (![0, 0, 0] : Fin 3 → Nat) a + S1x4000x80.size a ≤ S1x4000x80.size a
  h_S1x4000x80 : 0 < S1x4000x80.numel
  inb_S1x4000x1_S1x4000x1_0_0_0 : ∀ a, (![0, 0, 0] : Fin 3 → Nat) a + S1x4000x1.size a ≤ S1x4000x1.size a
  h_S1x4000x1 : 0 < S1x4000x1.numel
  shapeCasts_S1x4000x1_S1x4000x1 : S1x4000x1.ShapeCasts S1x4000x1
  inb_S1x1x80_S1x1x80_0_0_0 : ∀ a, (![0, 0, 0] : Fin 3 → Nat) a + S1x1x80.size a ≤ S1x1x80.size a
  h_S1x1x80 : 0 < S1x1x80.numel
  shapeCasts_S1x1x80_S1x1x80 : S1x1x80.ShapeCasts S1x1x80
  broadcasts_S1x4000x1_S1x4000x80 : S1x4000x1.Broadcasts S1x4000x80
  reduces_S1x4000x80_S1x80 : S1x4000x80.Reduces [1] S1x80
  shapeCasts_S1x80_S1x1x80 : S1x80.ShapeCasts S1x1x80
  reduces_S1x1x80_S1x1 : S1x1x80.Reduces [2] S1x1
  shapeCasts_S1x1_S1x1x1 : S1x1.ShapeCasts S1x1x1
  shapeCasts_S1x1x1_S1x1 : S1x1x1.ShapeCasts S1x1
  broadcasts_S1x1x80_S1x4000x80 : S1x1x80.Broadcasts S1x4000x80
  reduces_S1x4000x1_S1x1 : S1x4000x1.Reduces [1] S1x1
  reduces_S1x1x1_S1x1 : S1x1x1.Reduces [2] S1x1
  slices_S1x4000x80_o0_1_0_S1x3999x80 : S1x4000x80.Slices ![0, 1, 0] S1x3999x80
  slices_S1x4000x80_o0_0_0_S1x3999x80 : S1x4000x80.Slices ![0, 0, 0] S1x3999x80
  slices_S1x4000x1_o0_1_0_S1x3999x1 : S1x4000x1.Slices ![0, 1, 0] S1x3999x1
  slices_S1x4000x1_o0_0_0_S1x3999x1 : S1x4000x1.Slices ![0, 0, 0] S1x3999x1
  broadcasts_S1x3999x1_S1x3999x80 : S1x3999x1.Broadcasts S1x3999x80
  reduces_S1x3999x80_S1x80 : S1x3999x80.Reduces [1] S1x80
  reduces_S1x3999x1_S1x1 : S1x3999x1.Reduces [1] S1x1
  slices_S1x3999x80_o0_1_0_S1x3998x80 : S1x3999x80.Slices ![0, 1, 0] S1x3998x80
  slices_S1x3999x80_o0_0_0_S1x3998x80 : S1x3999x80.Slices ![0, 0, 0] S1x3998x80
  slices_S1x4000x1_o0_2_0_S1x3998x1 : S1x4000x1.Slices ![0, 2, 0] S1x3998x1
  slices_S1x4000x1_o0_1_0_S1x3998x1 : S1x4000x1.Slices ![0, 1, 0] S1x3998x1
  slices_S1x4000x1_o0_0_0_S1x3998x1 : S1x4000x1.Slices ![0, 0, 0] S1x3998x1
  broadcasts_S1x3998x1_S1x3998x80 : S1x3998x1.Broadcasts S1x3998x80
  reduces_S1x3998x80_S1x80 : S1x3998x80.Reduces [1] S1x80
  reduces_S1x3998x1_S1x1 : S1x3998x1.Reduces [1] S1x1
  reduces_S1x4000x80_S1x4000 : S1x4000x80.Reduces [2] S1x4000
  shapeCasts_S1x4000_S1x4000x1 : S1x4000.ShapeCasts S1x4000x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  inb_S8x128_S1x1_0_1 : ∀ a, (![0, 1] : Fin 2 → Nat) a + S1x1.size a ≤ S8x128.size a
  inb_S8x128_S1x1_0_2 : ∀ a, (![0, 2] : Fin 2 → Nat) a + S1x1.size a ≤ S8x128.size a
  inb_S8x128_S1x1_0_3 : ∀ a, (![0, 3] : Fin 2 → Nat) a + S1x1.size a ≤ S8x128.size a
  inb_S8x128_S1x1_0_4 : ∀ a, (![0, 4] : Fin 2 → Nat) a + S1x1.size a ≤ S8x128.size a
  inb_S8x128_S1x1_0_5 : ∀ a, (![0, 5] : Fin 2 → Nat) a + S1x1.size a ≤ S8x128.size a
  inb_S8x128_S1x1_0_6 : ∀ a, (![0, 6] : Fin 2 → Nat) a + S1x1.size a ≤ S8x128.size a
  inb_S8x128_S1x1_0_7 : ∀ a, (![0, 7] : Fin 2 → Nat) a + S1x1.size a ≤ S8x128.size a
  inb_S8x128_S1x1_0_8 : ∀ a, (![0, 8] : Fin 2 → Nat) a + S1x1.size a ≤ S8x128.size a
  inb_S8x128_S1x1_0_9 : ∀ a, (![0, 9] : Fin 2 → Nat) a + S1x1.size a ≤ S8x128.size a
  inb_S8x128_S1x1_0_10 : ∀ a, (![0, 10] : Fin 2 → Nat) a + S1x1.size a ≤ S8x128.size a
  inb_S1x1_S1x1_0_0 : ∀ a, (![0, 0] : Fin 2 → Nat) a + S1x1.size a ≤ S1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4000x80.size a ≤ S64x4000x80.size a
  hwx0_0 : ∀ i : grid0.Coords, EltTy.bits .f32 = 32 ∨ (Rect.block (s := S64x4000x80) S1x4000x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4000x80.size a ≤ S64x4000x80.size a
  hwx0_1 : ∀ i : grid0.Coords, EltTy.bits .f32 = 32 ∨ (Rect.block (s := S64x4000x80) S1x4000x80.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4000x1.size a ≤ S64x4000x1.size a
  hwx0_2 : ∀ i : grid0.Coords, EltTy.bits .f32 = 32 ∨ (Rect.block (s := S64x4000x1) S1x4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1x80.size a ≤ S1x1x80.size a
  hwx0_3 : ∀ i : grid0.Coords, EltTy.bits .f32 = 32 ∨ (Rect.block (s := S1x1x80) S1x1x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_arg0) S1x4000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4000x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S64x4000x80 : Shape := ⟨3, ![64, 4000, 80]⟩
abbrev S64x4000 : Shape := ⟨2, ![64, 4000]⟩
abbrev S80 : Shape := ⟨1, ![80]⟩
abbrev S64x4000x1 : Shape := ⟨3, ![64, 4000, 1]⟩
abbrev S_ : Shape := ⟨0, ![]⟩
abbrev S64x3999x80 : Shape := ⟨3, ![64, 3999, 80]⟩
abbrev S64x3999 : Shape := ⟨2, ![64, 3999]⟩
abbrev S64x3999x1 : Shape := ⟨3, ![64, 3999, 1]⟩
abbrev S64x3998x80 : Shape := ⟨3, ![64, 3998, 80]⟩
abbrev S64x3998 : Shape := ⟨2, ![64, 3998]⟩
abbrev S64x3998x1 : Shape := ⟨3, ![64, 3998, 1]⟩
abbrev S1x1x80 : Shape := ⟨3, ![1, 1, 80]⟩

abbrev nBuf : Space → Nat
  | .hbm => 141
  | .vmem => 0
  | .smem => 0
  | _ => 0

abbrev hbmTy0_0 (i : Nat) : BufTy := match i % 128 with
  | 0 => ⟨S64x4000x80, .f32⟩
  | 1 => ⟨S64x4000x80, .f32⟩
  | 2 => ⟨S64x4000, .f32⟩
  | 3 => ⟨S80, .f32⟩
  | 4 => ⟨S64x4000x1, .f32⟩
  | 5 => ⟨S64x4000x80, .f32⟩
  | 6 => ⟨S64x4000x80, .f32⟩
  | 7 => ⟨S64x4000x80, .f32⟩
  | 8 => ⟨S_, .f32⟩
  | 9 => ⟨S_, .f32⟩
  | 10 => ⟨S_, .f32⟩
  | 11 => ⟨S_, .f32⟩
  | 12 => ⟨S64x4000x80, .f32⟩
  | 13 => ⟨S64x4000x80, .f32⟩
  | 14 => ⟨S_, .f32⟩
  | 15 => ⟨S_, .f32⟩
  | 16 => ⟨S_, .f32⟩
  | 17 => ⟨S64x3999x80, .f32⟩
  | 18 => ⟨S64x3999x80, .f32⟩
  | 19 => ⟨S64x3999x80, .f32⟩
  | 20 => ⟨S64x3999x80, .f32⟩
  | 21 => ⟨S64x3999x80, .f32⟩
  | 22 => ⟨S64x3999x80, .f32⟩
  | 23 => ⟨S64x3999, .f32⟩
  | 24 => ⟨S64x3999, .f32⟩
  | 25 => ⟨S64x3999, .f32⟩
  | 26 => ⟨S64x3999x1, .f32⟩
  | 27 => ⟨S64x3999x80, .f32⟩
  | 28 => ⟨S64x3999x80, .f32⟩
  | 29 => ⟨S64x3999x80, .f32⟩
  | 30 => ⟨S_, .f32⟩
  | 31 => ⟨S_, .f32⟩
  | 32 => ⟨S_, .f32⟩
  | 33 => ⟨S_, .f32⟩
  | 34 => ⟨S64x3999x80, .f32⟩
  | 35 => ⟨S64x3999x80, .f32⟩
  | 36 => ⟨S_, .f32⟩
  | 37 => ⟨S_, .f32⟩
  | 38 => ⟨S_, .f32⟩
  | 39 => ⟨S64x3998x80, .f32⟩
  | 40 => ⟨S64x3998x80, .f32⟩
  | 41 => ⟨S64x3998x80, .f32⟩
  | 42 => ⟨S64x3998x80, .f32⟩
  | 43 => ⟨S64x3998x80, .f32⟩
  | 44 => ⟨S64x3998x80, .f32⟩
  | 45 => ⟨S64x3998, .f32⟩
  | 46 => ⟨S64x3998, .f32⟩
  | 47 => ⟨S64x3998, .f32⟩
  | 48 => ⟨S64x3998, .f32⟩
  | 49 => ⟨S64x3998, .f32⟩
  | 50 => ⟨S64x3998x1, .f32⟩
  | 51 => ⟨S64x3998x80, .f32⟩
  | 52 => ⟨S64x3998x80, .f32⟩
  | 53 => ⟨S64x3998x80, .f32⟩
  | 54 => ⟨S_, .f32⟩
  | 55 => ⟨S_, .f32⟩
  | 56 => ⟨S_, .f32⟩
  | 57 => ⟨S_, .f32⟩
  | 58 => ⟨S64x3998x80, .f32⟩
  | 59 => ⟨S64x3998x80, .f32⟩
  | 60 => ⟨S_, .f32⟩
  | 61 => ⟨S_, .f32⟩
  | 62 => ⟨S_, .f32⟩
  | 63 => ⟨S64x4000x80, .f32⟩
  | 64 => ⟨S64x4000x80, .f32⟩
  | 65 => ⟨S64x4000x80, .f32⟩
  | 66 => ⟨S64x4000x80, .f32⟩
  | 67 => ⟨S64x4000x80, .f32⟩
  | 68 => ⟨S64x4000x80, .f32⟩
  | 69 => ⟨S_, .f32⟩
  | 70 => ⟨S_, .f32⟩
  | 71 => ⟨S_, .f32⟩
  | 72 => ⟨S_, .f32⟩
  | 73 => ⟨S64x4000x80, .f32⟩
  | 74 => ⟨S_, .f32⟩
  | 75 => ⟨S_, .f32⟩
  | 76 => ⟨S_, .f32⟩
  | 77 => ⟨S_, .f32⟩
  | 78 => ⟨S64x4000x80, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S1x1x80, .f32⟩
  | 87 => ⟨S64x4000x80, .f32⟩
  | 88 => ⟨S64x4000x80, .f32⟩
  | 89 => ⟨S64x4000x80, .f32⟩
  | 90 => ⟨S_, .f32⟩
  | 91 => ⟨S_, .f32⟩
  | 92 => ⟨S_, .f32⟩
  | 93 => ⟨S_, .f32⟩
  | 94 => ⟨S64x4000x80, .f32⟩
  | 95 => ⟨S64x4000x80, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S64x4000, .f32⟩
  | 106 => ⟨S_, .f32⟩
  | 107 => ⟨S64x4000, .f32⟩
  | 108 => ⟨S64x4000, .f32⟩
  | 109 => ⟨S_, .f32⟩
  | 110 => ⟨S64x4000, .f32⟩
  | 111 => ⟨S_, .f32⟩
  | 112 => ⟨S64x4000, .f32⟩
  | 113 => ⟨S64x4000, .f32⟩
  | 114 => ⟨S64x4000, .f32⟩
  | 115 => ⟨S64x4000, .f32⟩
  | 116 => ⟨S_, .f32⟩
  | 117 => ⟨S_, .f32⟩
  | 118 => ⟨S_, .f32⟩
  | 119 => ⟨S_, .f32⟩
  | 120 => ⟨S64x4000, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S64x4000x80, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S64x4000x80, .f32⟩

abbrev hbmTy (i : Nat) : BufTy := match i / 128 with
  | 0 => hbmTy0_0 i
  | 1 => hbmTy0_1 i
  | _ => ⟨S64x4000x80, .f32⟩

abbrev bufTy : (tb : Table) → Fin (tcTables nBuf tb) → BufTy
  | .hbm, ⟨i, _⟩ => hbmTy i
  | _, _ => ⟨S64x4000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_cst_6 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_cst_9 : Ref sig .tc := ⟨.hbm, 71, rfl⟩
abbrev main_v57 : Ref sig .tc := ⟨.hbm, 72, rfl⟩
abbrev main_v58 : Ref sig .tc := ⟨.hbm, 73, rfl⟩
abbrev main_cst_10 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_11 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_13 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_15 : Ref sig .tc := ⟨.hbm, 96, rfl⟩
abbrev main_v76 : Ref sig .tc := ⟨.hbm, 97, rfl⟩
abbrev main_v77 : Ref sig .tc := ⟨.hbm, 98, rfl⟩
abbrev main_cst_16 : Ref sig .tc := ⟨.hbm, 99, rfl⟩
abbrev main_v78 : Ref sig .tc := ⟨.hbm, 100, rfl⟩
abbrev main_cst_17 : Ref sig .tc := ⟨.hbm, 101, rfl⟩
abbrev main_v79 : Ref sig .tc := ⟨.hbm, 102, rfl⟩
abbrev main_v80 : Ref sig .tc := ⟨.hbm, 103, rfl⟩
abbrev main_cst_18 : Ref sig .tc := ⟨.hbm, 104, rfl⟩
abbrev main_v81 : Ref sig .tc := ⟨.hbm, 105, rfl⟩
abbrev main_cst_19 : Ref sig .tc := ⟨.hbm, 106, rfl⟩
abbrev main_v82 : Ref sig .tc := ⟨.hbm, 107, rfl⟩
abbrev main_v83 : Ref sig .tc := ⟨.hbm, 108, rfl⟩
abbrev main_cst_20 : Ref sig .tc := ⟨.hbm, 109, rfl⟩
abbrev main_v84 : Ref sig .tc := ⟨.hbm, 110, rfl⟩
abbrev main_cst_21 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_22 : Ref sig .tc := ⟨.hbm, 116, rfl⟩
abbrev main_v89 : Ref sig .tc := ⟨.hbm, 117, rfl⟩
abbrev main_cst_23 : Ref sig .tc := ⟨.hbm, 118, rfl⟩
abbrev main_v90 : Ref sig .tc := ⟨.hbm, 119, rfl⟩
abbrev main_v91 : Ref sig .tc := ⟨.hbm, 120, rfl⟩
abbrev main_cst_24 : Ref sig .tc := ⟨.hbm, 121, rfl⟩
abbrev main_v92 : Ref sig .tc := ⟨.hbm, 122, rfl⟩
abbrev main_v93 : Ref sig .tc := ⟨.hbm, 123, rfl⟩
abbrev main_cst_25 : Ref sig .tc := ⟨.hbm, 124, rfl⟩
abbrev main_v94 : Ref sig .tc := ⟨.hbm, 125, rfl⟩
abbrev main_cst_26 : Ref sig .tc := ⟨.hbm, 126, rfl⟩
abbrev main_v95 : Ref sig .tc := ⟨.hbm, 127, rfl⟩
abbrev main_v96 : Ref sig .tc := ⟨.hbm, 128, rfl⟩
abbrev main_cst_27 : Ref sig .tc := ⟨.hbm, 129, rfl⟩
abbrev main_v97 : Ref sig .tc := ⟨.hbm, 130, rfl⟩
abbrev main_v98 : Ref sig .tc := ⟨.hbm, 131, rfl⟩
abbrev main_cst_28 : Ref sig .tc := ⟨.hbm, 132, rfl⟩
abbrev main_v99 : Ref sig .tc := ⟨.hbm, 133, rfl⟩
abbrev main_v100 : Ref sig .tc := ⟨.hbm, 134, rfl⟩
abbrev main_cst_29 : Ref sig .tc := ⟨.hbm, 135, rfl⟩
abbrev main_v101 : Ref sig .tc := ⟨.hbm, 136, rfl⟩
abbrev main_v102 : Ref sig .tc := ⟨.hbm, 137, rfl⟩
abbrev main_cst_30 : Ref sig .tc := ⟨.hbm, 138, rfl⟩
abbrev main_v103 : Ref sig .tc := ⟨.hbm, 139, rfl⟩
abbrev main_v104 : Ref sig .tc := ⟨.hbm, 140, rfl⟩

abbrev nD : Nat := 1
abbrev τ : Topo := Topo.v7x

variable {F : FTy → Type} [FloatOps F]

class Facts₀ : Prop where
  bcast_S64x4000_S64x4000x1_0_1 : S64x4000.BroadcastsInDim S64x4000x1 (![0, 1] : Fin 2 → Fin S64x4000x1.rank)
  bcast_S64x4000x1_S64x4000x80_0_1_2 : S64x4000x1.BroadcastsInDim S64x4000x80 (![0, 1, 2] : Fin 3 → Fin S64x4000x80.rank)
  reducesTo_S64x4000x80_S_d0_1_2 : S64x4000x80.ReducesTo [0, 1, 2] S_
  h_S_ : 0 < S_.numel
  slices_S64x4000x80_S64x3999x80_0_1_0 : S64x4000x80.Slices ![0, 1, 0] S64x3999x80
  slices_S64x4000x80_S64x3999x80_0_0_0 : S64x4000x80.Slices ![0, 0, 0] S64x3999x80
  slices_S64x4000_S64x3999_0_1 : S64x4000.Slices ![0, 1] S64x3999
  slices_S64x4000_S64x3999_0_0 : S64x4000.Slices ![0, 0] S64x3999
  bcast_S64x3999_S64x3999x1_0_1 : S64x3999.BroadcastsInDim S64x3999x1 (![0, 1] : Fin 2 → Fin S64x3999x1.rank)
  bcast_S64x3999x1_S64x3999x80_0_1_2 : S64x3999x1.BroadcastsInDim S64x3999x80 (![0, 1, 2] : Fin 3 → Fin S64x3999x80.rank)
  reducesTo_S64x3999x80_S_d0_1_2 : S64x3999x80.ReducesTo [0, 1, 2] S_
  slices_S64x3999x80_S64x3998x80_0_1_0 : S64x3999x80.Slices ![0, 1, 0] S64x3998x80
  slices_S64x3999x80_S64x3998x80_0_0_0 : S64x3999x80.Slices ![0, 0, 0] S64x3998x80
  slices_S64x4000_S64x3998_0_2 : S64x4000.Slices ![0, 2] S64x3998
  slices_S64x4000_S64x3998_0_1 : S64x4000.Slices ![0, 1] S64x3998
  slices_S64x4000_S64x3998_0_0 : S64x4000.Slices ![0, 0] S64x3998
  bcast_S64x3998_S64x3998x1_0_1 : S64x3998.BroadcastsInDim S64x3998x1 (![0, 1] : Fin 2 → Fin S64x3998x1.rank)
  bcast_S64x3998x1_S64x3998x80_0_1_2 : S64x3998x1.BroadcastsInDim S64x3998x80 (![0, 1, 2] : Fin 3 → Fin S64x3998x80.rank)
  reducesTo_S64x3998x80_S_d0_1_2 : S64x3998x80.ReducesTo [0, 1, 2] S_
  bcast_S80_S1x1x80_2 : S80.BroadcastsInDim S1x1x80 (![2] : Fin 1 → Fin S1x1x80.rank)
  bcast_S1x1x80_S64x4000x80_0_1_2 : S1x1x80.BroadcastsInDim S64x4000x80 (![0, 1, 2] : Fin 3 → Fin S64x4000x80.rank)
  reducesTo_S80_S_d0 : S80.ReducesTo [0] S_
  reducesTo_S64x4000x80_S64x4000_d2 : S64x4000x80.ReducesTo [2] S64x4000
  bcast_S_S64x4000 : S_.BroadcastsInDim S64x4000 (![] : Fin 0 → Fin S64x4000.rank)
  reducesTo_S64x4000_S_d0_1 : S64x4000.ReducesTo [0, 1] S_

variable [Facts₀]

class Facts : Prop extends Facts₀ where

variable [Facts]
-- ==== Proof.Cells.lean ====
/-
  What one grid point leaves in the accumulator scratch and in the result block.

  The body adds eleven partial sums of the current batch row, each into its own entry (0, k) of an 8 x 128
  scratch, k = 0 .. 10; the first point zeroes the scratch before adding, and the last point, after adding, combines
  the eleven totals and the mean band weight into the one entry of the result block. Read entry by entry: after a point
  the scratch holds at (0, k) what it held before (zero at the first point) plus the row's k-th partial sum, and the
  result block holds the combination of those updated entries.
-/
import proofs.«155167_j84593675862632_2_alg».proof.Proof.Gen.KernelIdeal.Frame
import Idealize.ShloMosaic.Lib.Tactic
import Idealize.ShloMosaic.Lib.WritesUnit
import Idealize.ShloMosaic.Lib.ValueIdx
import Idealize.ShloMosaic.Lib.Pipeline.Value

set_option maxRecDepth 16384

noncomputable section

namespace Cert.KernelIdeal.Cells

open Cert.KernelIdeal Cert.KernelIdeal.Gen
open Idealize.ShloMosaic Idealize.ShloMosaic.TcCoe Idealize.ShloMosaic.Tactic Idealize.SL.Sem Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-- A [1, 1] block has one index. -/
theorem idx11 (j : S1x1.Idx) : j = ix2 (0 : Fin 1) (0 : Fin 1) := by
  funext a; apply Fin.ext
  match a with
  | ⟨0, _⟩ => have := idx2_lt0 j; show (j 0).val = 0; omega
  | ⟨1, _⟩ => have := idx2_lt1 j; show (j 1).val = 0; omega

/-- Reading entry (0, k) through a list of stores, newest first: a store to another column is passed over. -/
macro "skipcell" : tactic => `(tactic| (rw [View.read_writes_cons_unit_of_not_mem _ _ _ _ _ _ rfl (1 : Fin 2) ?_]; swap; · first | exact Or.inl (by decide) | exact Or.inr (by decide)))
/-- The store to column k itself gives its payload's one entry. -/
macro "hitcell" : tactic => `(tactic| (rw [View.read_writes_cons_unit_of_mem _ _ _ _ _ _ (ix2 0 0) rfl ?_]; swap; · intro a; fin_cases a <;> rfl))

/-- The eleven partial sums of one batch row, as the body computes them from the row's blocks: of |p - q| m, of
    |p - q| m w, the count of m, the first differences' and their count, the second differences' and their count, of
    ((p - q) m)^2, of (q m)^2, of the frame means' distance times m, and of m. -/
def rows (x0 x1 : Vec Ideal S1x4000x80 .f32) (x2 : Vec Ideal S1x4000x1 .f32) (x3 : Vec Ideal S1x1x80 .f32) : Fin 11 → Ideal .f32 :=
  ![k0_pay15 x0 x1 x2 (ix2 0 0),
    k0_pay16 x0 x1 x2 x3 (ix2 0 0),
    k0_pay17 x2 (ix2 0 0),
    k0_pay21 x1 (k0_pay13 x2) (k0_pay18 x0) (ix2 0 0),
    k0_pay22 (k0_pay13 x2) (ix2 0 0),
    k0_pay24 x1 (k0_pay13 x2) (k0_pay18 x0) (ix2 0 0),
    k0_pay25 (k0_pay13 x2) (ix2 0 0),
    k0_pay27 (k0_pay13 x2) (k0_pay26 x0 x1) (ix2 0 0),
    k0_pay28 x1 (k0_pay13 x2) (ix2 0 0),
    k0_pay29 x0 x1 (k0_pay13 x2) (ix2 0 0),
    k0_pay30 (k0_pay13 x2) (ix2 0 0)]

theorem accpay0 (r : FVec Ideal S1x1 .f32) (xs0 : Vec Ideal S8x128 .f32) :
    k0_pay31 r (View.ld xs0 (Rect.unit ![0, 0] ![1, 1] inb_S8x128_S1x1_0_0)) (ix2 0 0) = xs0 (ix2 0 0) + r (ix2 0 0) := by
  unfold k0_pay31
  simp only [shapeCast_self]
  exact congrArg (· + r (ix2 0 0)) (congrArg xs0 (funext fun a => Fin.ext (by fin_cases a <;> rfl)))

theorem accpay1 (r : FVec Ideal S1x1 .f32) (xs0 : Vec Ideal S8x128 .f32) :
    k0_pay32 r (View.ld xs0 (Rect.unit ![0, 1] ![1, 1] inb_S8x128_S1x1_0_1)) (ix2 0 0) = xs0 (ix2 0 1) + r (ix2 0 0) := by
  unfold k0_pay32
  simp only [shapeCast_self]
  exact congrArg (· + r (ix2 0 0)) (congrArg xs0 (funext fun a => Fin.ext (by fin_cases a <;> rfl)))

theorem accpay2 (r : FVec Ideal S1x1 .f32) (xs0 : Vec Ideal S8x128 .f32) :
    k0_pay33 r (View.ld xs0 (Rect.unit ![0, 2] ![1, 1] inb_S8x128_S1x1_0_2)) (ix2 0 0) = xs0 (ix2 0 2) + r (ix2 0 0) := by
  unfold k0_pay33
  simp only [shapeCast_self]
  exact congrArg (· + r (ix2 0 0)) (congrArg xs0 (funext fun a => Fin.ext (by fin_cases a <;> rfl)))

theorem accpay3 (r : FVec Ideal S1x1 .f32) (xs0 : Vec Ideal S8x128 .f32) :
    k0_pay34 r (View.ld xs0 (Rect.unit ![0, 3] ![1, 1] inb_S8x128_S1x1_0_3)) (ix2 0 0) = xs0 (ix2 0 3) + r (ix2 0 0) := by
  unfold k0_pay34
  simp only [shapeCast_self]
  exact congrArg (· + r (ix2 0 0)) (congrArg xs0 (funext fun a => Fin.ext (by fin_cases a <;> rfl)))

theorem accpay4 (r : FVec Ideal S1x1 .f32) (xs0 : Vec Ideal S8x128 .f32) :
    k0_pay35 r (View.ld xs0 (Rect.unit ![0, 4] ![1, 1] inb_S8x128_S1x1_0_4)) (ix2 0 0) = xs0 (ix2 0 4) + r (ix2 0 0) := by
  unfold k0_pay35
  simp only [shapeCast_self]
  exact congrArg (· + r (ix2 0 0)) (congrArg xs0 (funext fun a => Fin.ext (by fin_cases a <;> rfl)))

theorem accpay5 (r : FVec Ideal S1x1 .f32) (xs0 : Vec Ideal S8x128 .f32) :
    k0_pay36 r (View.ld xs0 (Rect.unit ![0, 5] ![1, 1] inb_S8x128_S1x1_0_5)) (ix2 0 0) = xs0 (ix2 0 5) + r (ix2 0 0) := by
  unfold k0_pay36
  simp only [shapeCast_self]
  exact congrArg (· + r (ix2 0 0)) (congrArg xs0 (funext fun a => Fin.ext (by fin_cases a <;> rfl)))

theorem accpay6 (r : FVec Ideal S1x1 .f32) (xs0 : Vec Ideal S8x128 .f32) :
    k0_pay37 r (View.ld xs0 (Rect.unit ![0, 6] ![1, 1] inb_S8x128_S1x1_0_6)) (ix2 0 0) = xs0 (ix2 0 6) + r (ix2 0 0) := by
  unfold k0_pay37
  simp only [shapeCast_self]
  exact congrArg (· + r (ix2 0 0)) (congrArg xs0 (funext fun a => Fin.ext (by fin_cases a <;> rfl)))

theorem accpay7 (r : FVec Ideal S1x1 .f32) (xs0 : Vec Ideal S8x128 .f32) :
    k0_pay1 r (View.ld xs0 (Rect.unit ![0, 7] ![1, 1] inb_S8x128_S1x1_0_7)) (ix2 0 0) = xs0 (ix2 0 7) + r (ix2 0 0) := by
  unfold k0_pay1
  simp only [shapeCast_self]
  exact congrArg (· + r (ix2 0 0)) (congrArg xs0 (funext fun a => Fin.ext (by fin_cases a <;> rfl)))

theorem accpay8 (r : FVec Ideal S1x1 .f32) (xs0 : Vec Ideal S8x128 .f32) :
    k0_pay2 r (View.ld xs0 (Rect.unit ![0, 8] ![1, 1] inb_S8x128_S1x1_0_8)) (ix2 0 0) = xs0 (ix2 0 8) + r (ix2 0 0) := by
  unfold k0_pay2
  simp only [shapeCast_self]
  exact congrArg (· + r (ix2 0 0)) (congrArg xs0 (funext fun a => Fin.ext (by fin_cases a <;> rfl)))

theorem accpay9 (r : FVec Ideal S1x1 .f32) (xs0 : Vec Ideal S8x128 .f32) :
    k0_pay3 r (View.ld xs0 (Rect.unit ![0, 9] ![1, 1] inb_S8x128_S1x1_0_9)) (ix2 0 0) = xs0 (ix2 0 9) + r (ix2 0 0) := by
  unfold k0_pay3
  simp only [shapeCast_self]
  exact congrArg (· + r (ix2 0 0)) (congrArg xs0 (funext fun a => Fin.ext (by fin_cases a <;> rfl)))

theorem accpay10 (r : FVec Ideal S1x1 .f32) (xs0 : Vec Ideal S8x128 .f32) :
    k0_pay4 r (View.ld xs0 (Rect.unit ![0, 10] ![1, 1] inb_S8x128_S1x1_0_10)) (ix2 0 0) = xs0 (ix2 0 10) + r (ix2 0 0) := by
  unfold k0_pay4
  simp only [shapeCast_self]
  exact congrArg (· + r (ix2 0 0)) (congrArg xs0 (funext fun a => Fin.ext (by fin_cases a <;> rfl)))

theorem soutB_0 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_B_0 (F := Ideal) c i arg1 harg1 arg2 harg2 arg3 harg3 arg4 harg4 arg5 harg5 arg6 harg6 arg7 harg7 hc0 hc1 x0 x1 x2 x3 x4 xs0 (ix2 0 0) = xs0 (ix2 0 0) + rows x0 x1 x2 x3 0 := by
  unfold sout0_B_0 kernelRun0_B
  dsimp only
  sl_unfold_words
  iterate 10 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay0 _ xs0

theorem soutB_1 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_B_0 (F := Ideal) c i arg1 harg1 arg2 harg2 arg3 harg3 arg4 harg4 arg5 harg5 arg6 harg6 arg7 harg7 hc0 hc1 x0 x1 x2 x3 x4 xs0 (ix2 0 1) = xs0 (ix2 0 1) + rows x0 x1 x2 x3 1 := by
  unfold sout0_B_0 kernelRun0_B
  dsimp only
  sl_unfold_words
  iterate 9 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay1 _ xs0

theorem soutB_2 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_B_0 (F := Ideal) c i arg1 harg1 arg2 harg2 arg3 harg3 arg4 harg4 arg5 harg5 arg6 harg6 arg7 harg7 hc0 hc1 x0 x1 x2 x3 x4 xs0 (ix2 0 2) = xs0 (ix2 0 2) + rows x0 x1 x2 x3 2 := by
  unfold sout0_B_0 kernelRun0_B
  dsimp only
  sl_unfold_words
  iterate 8 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay2 _ xs0

theorem soutB_3 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_B_0 (F := Ideal) c i arg1 harg1 arg2 harg2 arg3 harg3 arg4 harg4 arg5 harg5 arg6 harg6 arg7 harg7 hc0 hc1 x0 x1 x2 x3 x4 xs0 (ix2 0 3) = xs0 (ix2 0 3) + rows x0 x1 x2 x3 3 := by
  unfold sout0_B_0 kernelRun0_B
  dsimp only
  sl_unfold_words
  iterate 7 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay3 _ xs0

theorem soutB_4 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_B_0 (F := Ideal) c i arg1 harg1 arg2 harg2 arg3 harg3 arg4 harg4 arg5 harg5 arg6 harg6 arg7 harg7 hc0 hc1 x0 x1 x2 x3 x4 xs0 (ix2 0 4) = xs0 (ix2 0 4) + rows x0 x1 x2 x3 4 := by
  unfold sout0_B_0 kernelRun0_B
  dsimp only
  sl_unfold_words
  iterate 6 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay4 _ xs0

theorem soutB_5 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_B_0 (F := Ideal) c i arg1 harg1 arg2 harg2 arg3 harg3 arg4 harg4 arg5 harg5 arg6 harg6 arg7 harg7 hc0 hc1 x0 x1 x2 x3 x4 xs0 (ix2 0 5) = xs0 (ix2 0 5) + rows x0 x1 x2 x3 5 := by
  unfold sout0_B_0 kernelRun0_B
  dsimp only
  sl_unfold_words
  iterate 5 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay5 _ xs0

theorem soutB_6 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_B_0 (F := Ideal) c i arg1 harg1 arg2 harg2 arg3 harg3 arg4 harg4 arg5 harg5 arg6 harg6 arg7 harg7 hc0 hc1 x0 x1 x2 x3 x4 xs0 (ix2 0 6) = xs0 (ix2 0 6) + rows x0 x1 x2 x3 6 := by
  unfold sout0_B_0 kernelRun0_B
  dsimp only
  sl_unfold_words
  iterate 4 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay6 _ xs0

theorem soutB_7 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_B_0 (F := Ideal) c i arg1 harg1 arg2 harg2 arg3 harg3 arg4 harg4 arg5 harg5 arg6 harg6 arg7 harg7 hc0 hc1 x0 x1 x2 x3 x4 xs0 (ix2 0 7) = xs0 (ix2 0 7) + rows x0 x1 x2 x3 7 := by
  unfold sout0_B_0 kernelRun0_B
  dsimp only
  sl_unfold_words
  iterate 3 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay7 _ xs0

theorem soutB_8 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_B_0 (F := Ideal) c i arg1 harg1 arg2 harg2 arg3 harg3 arg4 harg4 arg5 harg5 arg6 harg6 arg7 harg7 hc0 hc1 x0 x1 x2 x3 x4 xs0 (ix2 0 8) = xs0 (ix2 0 8) + rows x0 x1 x2 x3 8 := by
  unfold sout0_B_0 kernelRun0_B
  dsimp only
  sl_unfold_words
  iterate 2 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay8 _ xs0

theorem soutB_9 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_B_0 (F := Ideal) c i arg1 harg1 arg2 harg2 arg3 harg3 arg4 harg4 arg5 harg5 arg6 harg6 arg7 harg7 hc0 hc1 x0 x1 x2 x3 x4 xs0 (ix2 0 9) = xs0 (ix2 0 9) + rows x0 x1 x2 x3 9 := by
  unfold sout0_B_0 kernelRun0_B
  dsimp only
  sl_unfold_words
  iterate 1 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay9 _ xs0

theorem soutB_10 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_B_0 (F := Ideal) c i arg1 harg1 arg2 harg2 arg3 harg3 arg4 harg4 arg5 harg5 arg6 harg6 arg7 harg7 hc0 hc1 x0 x1 x2 x3 x4 xs0 (ix2 0 10) = xs0 (ix2 0 10) + rows x0 x1 x2 x3 10 := by
  unfold sout0_B_0 kernelRun0_B
  dsimp only
  sl_unfold_words

  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay10 _ xs0

/-- Entry (0, k) of the scratch after a point of case B. -/
theorem soutB (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) (k : Fin 11) :
    sout0_B_0 (F := Ideal) c i arg1 harg1 arg2 harg2 arg3 harg3 arg4 harg4 arg5 harg5 arg6 harg6 arg7 harg7 hc0 hc1 x0 x1 x2 x3 x4 xs0 (ix2 0 ⟨k.val, by have := k.isLt; omega⟩)
      = xs0 (ix2 0 ⟨k.val, by have := k.isLt; omega⟩) + rows x0 x1 x2 x3 k := by
  fin_cases k
  · exact soutB_0 c i arg1 harg1 arg2 harg2 arg3 harg3 arg4 harg4 arg5 harg5 arg6 harg6 arg7 harg7 hc0 hc1 x0 x1 x2 x3 x4 xs0
  · exact soutB_1 c i arg1 harg1 arg2 harg2 arg3 harg3 arg4 harg4 arg5 harg5 arg6 harg6 arg7 harg7 hc0 hc1 x0 x1 x2 x3 x4 xs0
  · exact soutB_2 c i arg1 harg1 arg2 harg2 arg3 harg3 arg4 harg4 arg5 harg5 arg6 harg6 arg7 harg7 hc0 hc1 x0 x1 x2 x3 x4 xs0
  · exact soutB_3 c i arg1 harg1 arg2 harg2 arg3 harg3 arg4 harg4 arg5 harg5 arg6 harg6 arg7 harg7 hc0 hc1 x0 x1 x2 x3 x4 xs0
  · exact soutB_4 c i arg1 harg1 arg2 harg2 arg3 harg3 arg4 harg4 arg5 harg5 arg6 harg6 arg7 harg7 hc0 hc1 x0 x1 x2 x3 x4 xs0
  · exact soutB_5 c i arg1 harg1 arg2 harg2 arg3 harg3 arg4 harg4 arg5 harg5 arg6 harg6 arg7 harg7 hc0 hc1 x0 x1 x2 x3 x4 xs0
  · exact soutB_6 c i arg1 harg1 arg2 harg2 arg3 harg3 arg4 harg4 arg5 harg5 arg6 harg6 arg7 harg7 hc0 hc1 x0 x1 x2 x3 x4 xs0
  · exact soutB_7 c i arg1 harg1 arg2 harg2 arg3 harg3 arg4 harg4 arg5 harg5 arg6 harg6 arg7 harg7 hc0 hc1 x0 x1 x2 x3 x4 xs0
  · exact soutB_8 c i arg1 harg1 arg2 harg2 arg3 harg3 arg4 harg4 arg5 harg5 arg6 harg6 arg7 harg7 hc0 hc1 x0 x1 x2 x3 x4 xs0
  · exact soutB_9 c i arg1 harg1 arg2 harg2 arg3 harg3 arg4 harg4 arg5 harg5 arg6 harg6 arg7 harg7 hc0 hc1 x0 x1 x2 x3 x4 xs0
  · exact soutB_10 c i arg1 harg1 arg2 harg2 arg3 harg3 arg4 harg4 arg5 harg5 arg6 harg6 arg7 harg7 hc0 hc1 x0 x1 x2 x3 x4 xs0

theorem soutC_0 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_C_0 (F := Ideal) c i arg1 harg1 arg2 harg2 arg3 harg3 arg4 harg4 arg5 harg5 arg6 harg6 arg7 harg7 hc0 hc1 x0 x1 x2 x3 x4 xs0 (ix2 0 0) = xs0 (ix2 0 0) + rows x0 x1 x2 x3 0 := by
  unfold sout0_C_0 kernelRun0_C
  dsimp only
  sl_unfold_words
  iterate 10 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay0 _ xs0

theorem soutC_1 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_C_0 (F := Ideal) c i arg1 harg1 arg2 harg2 arg3 harg3 arg4 harg4 arg5 harg5 arg6 harg6 arg7 harg7 hc0 hc1 x0 x1 x2 x3 x4 xs0 (ix2 0 1) = xs0 (ix2 0 1) + rows x0 x1 x2 x3 1 := by
  unfold sout0_C_0 kernelRun0_C
  dsimp only
  sl_unfold_words
  iterate 9 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay1 _ xs0

theorem soutC_2 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_C_0 (F := Ideal) c i arg1 harg1 arg2 harg2 arg3 harg3 arg4 harg4 arg5 harg5 arg6 harg6 arg7 harg7 hc0 hc1 x0 x1 x2 x3 x4 xs0 (ix2 0 2) = xs0 (ix2 0 2) + rows x0 x1 x2 x3 2 := by
  unfold sout0_C_0 kernelRun0_C
  dsimp only
  sl_unfold_words
  iterate 8 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay2 _ xs0

theorem soutC_3 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_C_0 (F := Ideal) c i arg1 harg1 arg2 harg2 arg3 harg3 arg4 harg4 arg5 harg5 arg6 harg6 arg7 harg7 hc0 hc1 x0 x1 x2 x3 x4 xs0 (ix2 0 3) = xs0 (ix2 0 3) + rows x0 x1 x2 x3 3 := by
  unfold sout0_C_0 kernelRun0_C
  dsimp only
  sl_unfold_words
  iterate 7 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay3 _ xs0

theorem soutC_4 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_C_0 (F := Ideal) c i arg1 harg1 arg2 harg2 arg3 harg3 arg4 harg4 arg5 harg5 arg6 harg6 arg7 harg7 hc0 hc1 x0 x1 x2 x3 x4 xs0 (ix2 0 4) = xs0 (ix2 0 4) + rows x0 x1 x2 x3 4 := by
  unfold sout0_C_0 kernelRun0_C
  dsimp only
  sl_unfold_words
  iterate 6 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay4 _ xs0

theorem soutC_5 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_C_0 (F := Ideal) c i arg1 harg1 arg2 harg2 arg3 harg3 arg4 harg4 arg5 harg5 arg6 harg6 arg7 harg7 hc0 hc1 x0 x1 x2 x3 x4 xs0 (ix2 0 5) = xs0 (ix2 0 5) + rows x0 x1 x2 x3 5 := by
  unfold sout0_C_0 kernelRun0_C
  dsimp only
  sl_unfold_words
  iterate 5 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay5 _ xs0

theorem soutC_6 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_C_0 (F := Ideal) c i arg1 harg1 arg2 harg2 arg3 harg3 arg4 harg4 arg5 harg5 arg6 harg6 arg7 harg7 hc0 hc1 x0 x1 x2 x3 x4 xs0 (ix2 0 6) = xs0 (ix2 0 6) + rows x0 x1 x2 x3 6 := by
  unfold sout0_C_0 kernelRun0_C
  dsimp only
  sl_unfold_words
  iterate 4 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay6 _ xs0

theorem soutC_7 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_C_0 (F := Ideal) c i arg1 harg1 arg2 harg2 arg3 harg3 arg4 harg4 arg5 harg5 arg6 harg6 arg7 harg7 hc0 hc1 x0 x1 x2 x3 x4 xs0 (ix2 0 7) = xs0 (ix2 0 7) + rows x0 x1 x2 x3 7 := by
  unfold sout0_C_0 kernelRun0_C
  dsimp only
  sl_unfold_words
  iterate 3 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay7 _ xs0

theorem soutC_8 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_C_0 (F := Ideal) c i arg1 harg1 arg2 harg2 arg3 harg3 arg4 harg4 arg5 harg5 arg6 harg6 arg7 harg7 hc0 hc1 x0 x1 x2 x3 x4 xs0 (ix2 0 8) = xs0 (ix2 0 8) + rows x0 x1 x2 x3 8 := by
  unfold sout0_C_0 kernelRun0_C
  dsimp only
  sl_unfold_words
  iterate 2 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay8 _ xs0

theorem soutC_9 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_C_0 (F := Ideal) c i arg1 harg1 arg2 harg2 arg3 harg3 arg4 harg4 arg5 harg5 arg6 harg6 arg7 harg7 hc0 hc1 x0 x1 x2 x3 x4 xs0 (ix2 0 9) = xs0 (ix2 0 9) + rows x0 x1 x2 x3 9 := by
  unfold sout0_C_0 kernelRun0_C
  dsimp only
  sl_unfold_words
  iterate 1 skipcell
  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay9 _ xs0

theorem soutC_10 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    sout0_C_0 (F := Ideal) c i arg1 harg1 arg2 harg2 arg3 harg3 arg4 harg4 arg5 harg5 arg6 harg6 arg7 harg7 hc0 hc1 x0 x1 x2 x3 x4 xs0 (ix2 0 10) = xs0 (ix2 0 10) + rows x0 x1 x2 x3 10 := by
  unfold sout0_C_0 kernelRun0_C
  dsimp only
  sl_unfold_words

  hitcell
  simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
  exact accpay10 _ xs0

/-- Entry (0, k) of the scratch after a point of case C. -/
theorem soutC (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) (k : Fin 11) :
    sout0_C_0 (F := Ideal) c i arg1 harg1 arg2 harg2 arg3 harg3 arg4 harg4 arg5 harg5 arg6 harg6 arg7 harg7 hc0 hc1 x0 x1 x2 x3 x4 xs0 (ix2 0 ⟨k.val, by have := k.isLt; omega⟩)
      = xs0 (ix2 0 ⟨k.val, by have := k.isLt; omega⟩) + rows x0 x1 x2 x3 k := by
  fin_cases k
  · exact soutC_0 c i arg1 harg1 arg2 harg2 arg3 harg3 arg4 harg4 arg5 harg5 arg6 harg6 arg7 harg7 hc0 hc1 x0 x1 x2 x3 x4 xs0
  · exact soutC_1 c i arg1 harg1 arg2 harg2 arg3 harg3 arg4 harg4 arg5 harg5 arg6 harg6 arg7 harg7 hc0 hc1 x0 x1 x2 x3 x4 xs0
  · exact soutC_2 c i arg1 harg1 arg2 harg2 arg3 harg3 arg4 harg4 arg5 harg5 arg6 harg6 arg7 harg7 hc0 hc1 x0 x1 x2 x3 x4 xs0
  · exact soutC_3 c i arg1 harg1 arg2 harg2 arg3 harg3 arg4 harg4 arg5 harg5 arg6 harg6 arg7 harg7 hc0 hc1 x0 x1 x2 x3 x4 xs0
  · exact soutC_4 c i arg1 harg1 arg2 harg2 arg3 harg3 arg4 harg4 arg5 harg5 arg6 harg6 arg7 harg7 hc0 hc1 x0 x1 x2 x3 x4 xs0
  · exact soutC_5 c i arg1 harg1 arg2 harg2 arg3 harg3 arg4 harg4 arg5 harg5 arg6 harg6 arg7 harg7 hc0 hc1 x0 x1 x2 x3 x4 xs0
  · exact soutC_6 c i arg1 harg1 arg2 harg2 arg3 harg3 arg4 harg4 arg5 harg5 arg6 harg6 arg7 harg7 hc0 hc1 x0 x1 x2 x3 x4 xs0
  · exact soutC_7 c i arg1 harg1 arg2 harg2 arg3 harg3 arg4 harg4 arg5 harg5 arg6 harg6 arg7 harg7 hc0 hc1 x0 x1 x2 x3 x4 xs0
  · exact soutC_8 c i arg1 harg1 arg2 harg2 arg3 harg3 arg4 harg4 arg5 harg5 arg6 harg6 arg7 harg7 hc0 hc1 x0 x1 x2 x3 x4 xs0
  · exact soutC_9 c i arg1 harg1 arg2 harg2 arg3 harg3 arg4 harg4 arg5 harg5 arg6 harg6 arg7 harg7 hc0 hc1 x0 x1 x2 x3 x4 xs0
  · exact soutC_10 c i arg1 harg1 arg2 harg2 arg3 harg3 arg4 harg4 arg5 harg5 arg6 harg6 arg7 harg7 hc0 hc1 x0 x1 x2 x3 x4 xs0

theorem soutA_0 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) :
    sout0_A_0 (F := Ideal) c i arg1 harg1 arg2 harg2 arg3 harg3 arg4 harg4 arg5 harg5 arg6 harg6 arg7 harg7 hc0 hc1 x0 x1 x2 x3 x4 (ix2 0 0) = Ideal.ofBits .f32 0x00000000#32 + rows x0 x1 x2 x3 0 := by
  unfold sout0_A_0 kernelRun0_A
  dsimp only
  sl_unfold_words
  iterate 10 skipcell
  hitcell
  unfold k0_pay31
  simp only [shapeCast_self]
  rw [addf_apply]
  refine congrArg₂ (· + ·) ?_ ?_
  · unfold View.readCov
    rw [View.readAt_apply]

    rw [View.read_writes_cons_unit_of_mem _ _ _ _ _ _ (ix2 0 0) rfl ?_]; swap
    · intro a; fin_cases a <;> rfl
    unfold k0_pay12
    simp only [shapeCast_self]
    rfl
  · simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    rfl

theorem soutA_1 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) :
    sout0_A_0 (F := Ideal) c i arg1 harg1 arg2 harg2 arg3 harg3 arg4 harg4 arg5 harg5 arg6 harg6 arg7 harg7 hc0 hc1 x0 x1 x2 x3 x4 (ix2 0 1) = Ideal.ofBits .f32 0x00000000#32 + rows x0 x1 x2 x3 1 := by
  unfold sout0_A_0 kernelRun0_A
  dsimp only
  sl_unfold_words
  iterate 9 skipcell
  hitcell
  unfold k0_pay32
  simp only [shapeCast_self]
  rw [addf_apply]
  refine congrArg₂ (· + ·) ?_ ?_
  · unfold View.readCov
    rw [View.readAt_apply]
    iterate 1 skipcell
    rw [View.read_writes_cons_unit_of_mem _ _ _ _ _ _ (ix2 0 1) rfl ?_]; swap
    · intro a; fin_cases a <;> rfl
    unfold k0_pay12
    simp only [shapeCast_self]
    rfl
  · simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    rfl

theorem soutA_2 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) :
    sout0_A_0 (F := Ideal) c i arg1 harg1 arg2 harg2 arg3 harg3 arg4 harg4 arg5 harg5 arg6 harg6 arg7 harg7 hc0 hc1 x0 x1 x2 x3 x4 (ix2 0 2) = Ideal.ofBits .f32 0x00000000#32 + rows x0 x1 x2 x3 2 := by
  unfold sout0_A_0 kernelRun0_A
  dsimp only
  sl_unfold_words
  iterate 8 skipcell
  hitcell
  unfold k0_pay33
  simp only [shapeCast_self]
  rw [addf_apply]
  refine congrArg₂ (· + ·) ?_ ?_
  · unfold View.readCov
    rw [View.readAt_apply]
    iterate 2 skipcell
    rw [View.read_writes_cons_unit_of_mem _ _ _ _ _ _ (ix2 0 2) rfl ?_]; swap
    · intro a; fin_cases a <;> rfl
    unfold k0_pay12
    simp only [shapeCast_self]
    rfl
  · simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    rfl

theorem soutA_3 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) :
    sout0_A_0 (F := Ideal) c i arg1 harg1 arg2 harg2 arg3 harg3 arg4 harg4 arg5 harg5 arg6 harg6 arg7 harg7 hc0 hc1 x0 x1 x2 x3 x4 (ix2 0 3) = Ideal.ofBits .f32 0x00000000#32 + rows x0 x1 x2 x3 3 := by
  unfold sout0_A_0 kernelRun0_A
  dsimp only
  sl_unfold_words
  iterate 7 skipcell
  hitcell
  unfold k0_pay34
  simp only [shapeCast_self]
  rw [addf_apply]
  refine congrArg₂ (· + ·) ?_ ?_
  · unfold View.readCov
    rw [View.readAt_apply]
    iterate 3 skipcell
    rw [View.read_writes_cons_unit_of_mem _ _ _ _ _ _ (ix2 0 3) rfl ?_]; swap
    · intro a; fin_cases a <;> rfl
    unfold k0_pay12
    simp only [shapeCast_self]
    rfl
  · simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    rfl

theorem soutA_4 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) :
    sout0_A_0 (F := Ideal) c i arg1 harg1 arg2 harg2 arg3 harg3 arg4 harg4 arg5 harg5 arg6 harg6 arg7 harg7 hc0 hc1 x0 x1 x2 x3 x4 (ix2 0 4) = Ideal.ofBits .f32 0x00000000#32 + rows x0 x1 x2 x3 4 := by
  unfold sout0_A_0 kernelRun0_A
  dsimp only
  sl_unfold_words
  iterate 6 skipcell
  hitcell
  unfold k0_pay35
  simp only [shapeCast_self]
  rw [addf_apply]
  refine congrArg₂ (· + ·) ?_ ?_
  · unfold View.readCov
    rw [View.readAt_apply]
    iterate 4 skipcell
    rw [View.read_writes_cons_unit_of_mem _ _ _ _ _ _ (ix2 0 4) rfl ?_]; swap
    · intro a; fin_cases a <;> rfl
    unfold k0_pay12
    simp only [shapeCast_self]
    rfl
  · simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    rfl

theorem soutA_5 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) :
    sout0_A_0 (F := Ideal) c i arg1 harg1 arg2 harg2 arg3 harg3 arg4 harg4 arg5 harg5 arg6 harg6 arg7 harg7 hc0 hc1 x0 x1 x2 x3 x4 (ix2 0 5) = Ideal.ofBits .f32 0x00000000#32 + rows x0 x1 x2 x3 5 := by
  unfold sout0_A_0 kernelRun0_A
  dsimp only
  sl_unfold_words
  iterate 5 skipcell
  hitcell
  unfold k0_pay36
  simp only [shapeCast_self]
  rw [addf_apply]
  refine congrArg₂ (· + ·) ?_ ?_
  · unfold View.readCov
    rw [View.readAt_apply]
    iterate 5 skipcell
    rw [View.read_writes_cons_unit_of_mem _ _ _ _ _ _ (ix2 0 5) rfl ?_]; swap
    · intro a; fin_cases a <;> rfl
    unfold k0_pay12
    simp only [shapeCast_self]
    rfl
  · simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    rfl

theorem soutA_6 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) :
    sout0_A_0 (F := Ideal) c i arg1 harg1 arg2 harg2 arg3 harg3 arg4 harg4 arg5 harg5 arg6 harg6 arg7 harg7 hc0 hc1 x0 x1 x2 x3 x4 (ix2 0 6) = Ideal.ofBits .f32 0x00000000#32 + rows x0 x1 x2 x3 6 := by
  unfold sout0_A_0 kernelRun0_A
  dsimp only
  sl_unfold_words
  iterate 4 skipcell
  hitcell
  unfold k0_pay37
  simp only [shapeCast_self]
  rw [addf_apply]
  refine congrArg₂ (· + ·) ?_ ?_
  · unfold View.readCov
    rw [View.readAt_apply]
    iterate 6 skipcell
    rw [View.read_writes_cons_unit_of_mem _ _ _ _ _ _ (ix2 0 6) rfl ?_]; swap
    · intro a; fin_cases a <;> rfl
    unfold k0_pay12
    simp only [shapeCast_self]
    rfl
  · simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    rfl

theorem soutA_7 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) :
    sout0_A_0 (F := Ideal) c i arg1 harg1 arg2 harg2 arg3 harg3 arg4 harg4 arg5 harg5 arg6 harg6 arg7 harg7 hc0 hc1 x0 x1 x2 x3 x4 (ix2 0 7) = Ideal.ofBits .f32 0x00000000#32 + rows x0 x1 x2 x3 7 := by
  unfold sout0_A_0 kernelRun0_A
  dsimp only
  sl_unfold_words
  iterate 3 skipcell
  hitcell
  unfold k0_pay1
  simp only [shapeCast_self]
  rw [addf_apply]
  refine congrArg₂ (· + ·) ?_ ?_
  · unfold View.readCov
    rw [View.readAt_apply]
    iterate 7 skipcell
    rw [View.read_writes_cons_unit_of_mem _ _ _ _ _ _ (ix2 0 7) rfl ?_]; swap
    · intro a; fin_cases a <;> rfl
    unfold k0_pay12
    simp only [shapeCast_self]
    rfl
  · simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    rfl

theorem soutA_8 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) :
    sout0_A_0 (F := Ideal) c i arg1 harg1 arg2 harg2 arg3 harg3 arg4 harg4 arg5 harg5 arg6 harg6 arg7 harg7 hc0 hc1 x0 x1 x2 x3 x4 (ix2 0 8) = Ideal.ofBits .f32 0x00000000#32 + rows x0 x1 x2 x3 8 := by
  unfold sout0_A_0 kernelRun0_A
  dsimp only
  sl_unfold_words
  iterate 2 skipcell
  hitcell
  unfold k0_pay2
  simp only [shapeCast_self]
  rw [addf_apply]
  refine congrArg₂ (· + ·) ?_ ?_
  · unfold View.readCov
    rw [View.readAt_apply]
    iterate 8 skipcell
    rw [View.read_writes_cons_unit_of_mem _ _ _ _ _ _ (ix2 0 8) rfl ?_]; swap
    · intro a; fin_cases a <;> rfl
    unfold k0_pay12
    simp only [shapeCast_self]
    rfl
  · simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    rfl

theorem soutA_9 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) :
    sout0_A_0 (F := Ideal) c i arg1 harg1 arg2 harg2 arg3 harg3 arg4 harg4 arg5 harg5 arg6 harg6 arg7 harg7 hc0 hc1 x0 x1 x2 x3 x4 (ix2 0 9) = Ideal.ofBits .f32 0x00000000#32 + rows x0 x1 x2 x3 9 := by
  unfold sout0_A_0 kernelRun0_A
  dsimp only
  sl_unfold_words
  iterate 1 skipcell
  hitcell
  unfold k0_pay3
  simp only [shapeCast_self]
  rw [addf_apply]
  refine congrArg₂ (· + ·) ?_ ?_
  · unfold View.readCov
    rw [View.readAt_apply]
    iterate 9 skipcell
    rw [View.read_writes_cons_unit_of_mem _ _ _ _ _ _ (ix2 0 9) rfl ?_]; swap
    · intro a; fin_cases a <;> rfl
    unfold k0_pay12
    simp only [shapeCast_self]
    rfl
  · simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    rfl

theorem soutA_10 (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) :
    sout0_A_0 (F := Ideal) c i arg1 harg1 arg2 harg2 arg3 harg3 arg4 harg4 arg5 harg5 arg6 harg6 arg7 harg7 hc0 hc1 x0 x1 x2 x3 x4 (ix2 0 10) = Ideal.ofBits .f32 0x00000000#32 + rows x0 x1 x2 x3 10 := by
  unfold sout0_A_0 kernelRun0_A
  dsimp only
  sl_unfold_words

  hitcell
  unfold k0_pay4
  simp only [shapeCast_self]
  rw [addf_apply]
  refine congrArg₂ (· + ·) ?_ ?_
  · unfold View.readCov
    rw [View.readAt_apply]
    iterate 10 skipcell
    rw [View.read_writes_cons_unit_of_mem _ _ _ _ _ _ (ix2 0 10) rfl ?_]; swap
    · intro a; fin_cases a <;> rfl
    unfold k0_pay12
    simp only [shapeCast_self]
    rfl
  · simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    rfl

/-- Entry (0, k) of the scratch after a point of case A. -/
theorem soutA (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : cond0_0 i) (hc1 : ¬cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (k : Fin 11) :
    sout0_A_0 (F := Ideal) c i arg1 harg1 arg2 harg2 arg3 harg3 arg4 harg4 arg5 harg5 arg6 harg6 arg7 harg7 hc0 hc1 x0 x1 x2 x3 x4 (ix2 0 ⟨k.val, by have := k.isLt; omega⟩)
      = Ideal.ofBits .f32 0x00000000#32 + rows x0 x1 x2 x3 k := by
  fin_cases k
  · exact soutA_0 c i arg1 harg1 arg2 harg2 arg3 harg3 arg4 harg4 arg5 harg5 arg6 harg6 arg7 harg7 hc0 hc1 x0 x1 x2 x3 x4
  · exact soutA_1 c i arg1 harg1 arg2 harg2 arg3 harg3 arg4 harg4 arg5 harg5 arg6 harg6 arg7 harg7 hc0 hc1 x0 x1 x2 x3 x4
  · exact soutA_2 c i arg1 harg1 arg2 harg2 arg3 harg3 arg4 harg4 arg5 harg5 arg6 harg6 arg7 harg7 hc0 hc1 x0 x1 x2 x3 x4
  · exact soutA_3 c i arg1 harg1 arg2 harg2 arg3 harg3 arg4 harg4 arg5 harg5 arg6 harg6 arg7 harg7 hc0 hc1 x0 x1 x2 x3 x4
  · exact soutA_4 c i arg1 harg1 arg2 harg2 arg3 harg3 arg4 harg4 arg5 harg5 arg6 harg6 arg7 harg7 hc0 hc1 x0 x1 x2 x3 x4
  · exact soutA_5 c i arg1 harg1 arg2 harg2 arg3 harg3 arg4 harg4 arg5 harg5 arg6 harg6 arg7 harg7 hc0 hc1 x0 x1 x2 x3 x4
  · exact soutA_6 c i arg1 harg1 arg2 harg2 arg3 harg3 arg4 harg4 arg5 harg5 arg6 harg6 arg7 harg7 hc0 hc1 x0 x1 x2 x3 x4
  · exact soutA_7 c i arg1 harg1 arg2 harg2 arg3 harg3 arg4 harg4 arg5 harg5 arg6 harg6 arg7 harg7 hc0 hc1 x0 x1 x2 x3 x4
  · exact soutA_8 c i arg1 harg1 arg2 harg2 arg3 harg3 arg4 harg4 arg5 harg5 arg6 harg6 arg7 harg7 hc0 hc1 x0 x1 x2 x3 x4
  · exact soutA_9 c i arg1 harg1 arg2 harg2 arg3 harg3 arg4 harg4 arg5 harg5 arg6 harg6 arg7 harg7 hc0 hc1 x0 x1 x2 x3 x4
  · exact soutA_10 c i arg1 harg1 arg2 harg2 arg3 harg3 arg4 harg4 arg5 harg5 arg6 harg6 arg7 harg7 hc0 hc1 x0 x1 x2 x3 x4

/-- The last point's combination of the eleven totals `acc` and the mean band weight `mbw`, with n = max(acc 2, 1):
    acc 0 / n + 0.5 acc 3 / max(acc 4, 1) + 0.25 acc 5 / max(acc 6, 1) + 0.5 sqrt(acc 7 / n) / max(sqrt(acc 8 / n), eps)
    + (acc 1 / n) / mbw + 0.5 acc 9 / max(acc 10, 1), the body's own operations at its one entry. -/
def combine (acc : Fin 11 → Ideal .f32) (mbw : Ideal .f32) : Ideal .f32 :=
  k0_pay5 (fun _ => acc 1) (fun _ => acc 2) (fun _ => acc 9) (fun _ => acc 10) (k0_pay6 (fun _ => mbw))
    (k0_pay7 (fun _ => acc 0) (fun _ => acc 2)) (k0_pay8 (fun _ => acc 3) (fun _ => acc 4)) (k0_pay9 (fun _ => acc 5) (fun _ => acc 6))
    (k0_pay10 (fun _ => acc 2) (fun _ => acc 7)) (k0_pay11 (fun _ => acc 2) (fun _ => acc 8)) (Scalar.ofBits .f32 0x322BCC77#32) (ix2 0 0)

/-- The result block's payload depends on its twelve [1, 1] operands through their one entry only. -/
theorem pay5_eq (v182 v183 v184 v185 v186 v187 v188 v189 v190 v191 v192 v193 : Vec Ideal S1x1 .f32) (acc : Fin 11 → Ideal .f32) (mbw : Ideal .f32)
    (h0 : v182 (ix2 0 0) = acc 0) (h1 : v183 (ix2 0 0) = acc 1) (h2 : v184 (ix2 0 0) = acc 2) (h3 : v185 (ix2 0 0) = acc 3)
    (h4 : v186 (ix2 0 0) = acc 4) (h5 : v187 (ix2 0 0) = acc 5) (h6 : v188 (ix2 0 0) = acc 6) (h7 : v189 (ix2 0 0) = acc 7)
    (h8 : v190 (ix2 0 0) = acc 8) (h9 : v191 (ix2 0 0) = acc 9) (h10 : v192 (ix2 0 0) = acc 10) (hm : v193 (ix2 0 0) = mbw) :
    k0_pay5 v183 v184 v191 v192 (k0_pay6 v193) (k0_pay7 v182 v184) (k0_pay8 v185 v186) (k0_pay9 v187 v188) (k0_pay10 v184 v189)
      (k0_pay11 v184 v190) (Scalar.ofBits .f32 0x322BCC77#32) (ix2 0 0) = combine acc mbw := by
  have c : ∀ (v : Vec Ideal S1x1 .f32) (a : Ideal .f32), v (ix2 0 0) = a → v = fun _ => a :=
    fun v a h => funext fun j => (congrArg v (idx11 j)).trans h
  rw [c v182 _ h0, c v183 _ h1, c v184 _ h2, c v185 _ h3, c v186 _ h4, c v187 _ h5, c v188 _ h6, c v189 _ h7, c v190 _ h8,
    c v191 _ h9, c v192 _ h10, c v193 _ hm]
  rfl

/-- At the last point the result block's one entry is the combination of the updated scratch entries. -/
theorem outC (c : Dev nD) (i : grid0.Coords) (arg1 : Memref sig .tc .vmem S1x4000x80 .f32) (harg1 : arg1.IsWhole) (arg2 : Memref sig .tc .vmem S1x4000x80 .f32) (harg2 : arg2.IsWhole) (arg3 : Memref sig .tc .vmem S1x4000x1 .f32) (harg3 : arg3.IsWhole) (arg4 : Memref sig .tc .vmem S1x1x80 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S8x128 .f32) (harg7 : arg7.IsWhole) (hc0 : ¬cond0_0 i) (hc1 : cond0_1 i)
    (x0 : Vec Ideal S1x4000x80 .f32) (x1 : Vec Ideal S1x4000x80 .f32) (x2 : Vec Ideal S1x4000x1 .f32) (x3 : Vec Ideal S1x1x80 .f32) (x4 : Vec Ideal S1x1 .f32) (xs0 : Vec Ideal S8x128 .f32) :
    out0_C_5 (F := Ideal) c i arg1 harg1 arg2 harg2 arg3 harg3 arg4 harg4 arg5 harg5 arg6 harg6 arg7 harg7 hc0 hc1 x0 x1 x2 x3 x4 xs0 (ix2 0 0)
      = combine (fun k => xs0 (ix2 0 ⟨k.val, by have := k.isLt; omega⟩) + rows x0 x1 x2 x3 k) (x4 (ix2 0 0)) := by
  unfold out0_C_5
  rw [View.read_writes_eq_canon _ _ _ (cover0_C_5 c i arg1 harg1 arg2 harg2 arg3 harg3 arg4 harg4 arg5 harg5 arg6 harg6 arg7 harg7 hc0 hc1 x0 x1 x2 x3 x4 xs0)]
  unfold kernelRun0_C
  dsimp only
  sl_unfold_words
  rw [View.canon_unit_zero hz2]
  refine pay5_eq _ _ _ _ _ _ _ _ _ _ _ _ _ _ ?_ ?_ ?_ ?_ ?_ ?_ ?_ ?_ ?_ ?_ ?_ ?_
  · show _ = xs0 (ix2 0 0) + rows x0 x1 x2 x3 0
    unfold View.readCov
    rw [View.readAt_apply]
    iterate 10 skipcell
    hitcell
    simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    exact accpay0 _ xs0
  · show _ = xs0 (ix2 0 1) + rows x0 x1 x2 x3 1
    unfold View.readCov
    rw [View.readAt_apply]
    iterate 9 skipcell
    hitcell
    simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    exact accpay1 _ xs0
  · show _ = xs0 (ix2 0 2) + rows x0 x1 x2 x3 2
    unfold View.readCov
    rw [View.readAt_apply]
    iterate 8 skipcell
    hitcell
    simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    exact accpay2 _ xs0
  · show _ = xs0 (ix2 0 3) + rows x0 x1 x2 x3 3
    unfold View.readCov
    rw [View.readAt_apply]
    iterate 7 skipcell
    hitcell
    simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    exact accpay3 _ xs0
  · show _ = xs0 (ix2 0 4) + rows x0 x1 x2 x3 4
    unfold View.readCov
    rw [View.readAt_apply]
    iterate 6 skipcell
    hitcell
    simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    exact accpay4 _ xs0
  · show _ = xs0 (ix2 0 5) + rows x0 x1 x2 x3 5
    unfold View.readCov
    rw [View.readAt_apply]
    iterate 5 skipcell
    hitcell
    simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    exact accpay5 _ xs0
  · show _ = xs0 (ix2 0 6) + rows x0 x1 x2 x3 6
    unfold View.readCov
    rw [View.readAt_apply]
    iterate 4 skipcell
    hitcell
    simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    exact accpay6 _ xs0
  · show _ = xs0 (ix2 0 7) + rows x0 x1 x2 x3 7
    unfold View.readCov
    rw [View.readAt_apply]
    iterate 3 skipcell
    hitcell
    simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    exact accpay7 _ xs0
  · show _ = xs0 (ix2 0 8) + rows x0 x1 x2 x3 8
    unfold View.readCov
    rw [View.readAt_apply]
    iterate 2 skipcell
    hitcell
    simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    exact accpay8 _ xs0
  · show _ = xs0 (ix2 0 9) + rows x0 x1 x2 x3 9
    unfold View.readCov
    rw [View.readAt_apply]
    iterate 1 skipcell
    hitcell
    simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    exact accpay9 _ xs0
  · show _ = xs0 (ix2 0 10) + rows x0 x1 x2 x3 10
    unfold View.readCov
    rw [View.readAt_apply]

    hitcell
    simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    exact accpay10 _ xs0
  · simp only [View.readAt_eq_ld, harg1.read_unread, harg2.read_unread, harg3.read_unread, harg4.read_unread, harg5.read_unread, harg7.read_unread,
    View.ld_unit_zero (S := S1x4000x80) hz3, View.ld_unit_zero (S := S1x4000x1) hz3, View.ld_unit_zero (S := S1x1x80) hz3, View.ld_unit_zero (S := S1x1) hz2]
    exact congrArg x4 (funext fun a => Fin.ext (by fin_cases a <;> rfl))

end Cert.KernelIdeal.Cells
end
-- ==== Proof.Accum.lean ====
/-
  Point by point: after grid point n the scratch holds at (0, k) the sum of the k-th partial sums of batch rows 0 .. n
  (started from the zero the first point stores), and the last point's result entry is the combination of the sums
  over all 64 rows and the mean band weight.
-/
import proofs.«155167_j84593675862632_2_alg».proof.Proof.Cells

set_option maxRecDepth 16384

noncomputable section

open scoped BigOperators

namespace Cert.KernelIdeal.Accum

open Cert.KernelIdeal Cert.KernelIdeal.Gen Cert.KernelIdeal.Cells
open Idealize.ShloMosaic Idealize.ShloMosaic.TcCoe Idealize.SL.Sem Idealize.ShloMosaic.ValueIdx

variable (m : (ℓ : Loc nD τ sig) → Buf (Elt Ideal) ℓ)

/-- The first point: zero plus the row's partial sums. -/
theorem stepA (c : Dev nD) (t : Fin cfg0.N) (h0 : t.val % 64 = 0) (h1 : ¬t.val % 64 = 63) (k : Fin 11) :
    (outsAt0 m c t.val t.isLt).2 (ix2 0 ⟨k.val, by have := k.isLt; omega⟩) = Ideal.ofBits .f32 0x00000000#32 + rows (iblk m c 0 t) (iblk m c 1 t) (iblk m c 2 t) (iblk m c 3 t) k := by
  rw [outsAt0_A m c t h0 h1]
  exact soutA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t) k

/-- A middle point: what the point before left plus the row's partial sums. -/
theorem stepB (c : Dev nD) (t : Fin cfg0.N) (h0 : ¬t.val % 64 = 0) (h1 : ¬t.val % 64 = 63) (k : Fin 11) :
    (outsAt0 m c t.val t.isLt).2 (ix2 0 ⟨k.val, by have := k.isLt; omega⟩) = (outsAt0 m c (t.val - 1) (Nat.lt_of_le_of_lt (Nat.sub_le _ _) t.isLt)).2 (ix2 0 ⟨k.val, by have := k.isLt; omega⟩) + rows (iblk m c 0 t) (iblk m c 1 t) (iblk m c 2 t) (iblk m c 3 t) k := by
  rw [outsAt0_B m c t h0 h1]
  exact soutB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2 k

/-- The last point: the same in the scratch, -/
theorem stepC (c : Dev nD) (t : Fin cfg0.N) (h0 : ¬t.val % 64 = 0) (h1 : t.val % 64 = 63) (k : Fin 11) :
    (outsAt0 m c t.val t.isLt).2 (ix2 0 ⟨k.val, by have := k.isLt; omega⟩) = (outsAt0 m c (t.val - 1) (Nat.lt_of_le_of_lt (Nat.sub_le _ _) t.isLt)).2 (ix2 0 ⟨k.val, by have := k.isLt; omega⟩) + rows (iblk m c 0 t) (iblk m c 1 t) (iblk m c 2 t) (iblk m c 3 t) k := by
  rw [outsAt0_C m c t h0 h1]
  exact soutC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2 k

set_option maxHeartbeats 4000000 in
/-- and the result entry is the combination of the updated scratch entries and the mean band weight. -/
theorem stepOut (c : Dev nD) (t : Fin cfg0.N) (h0 : ¬t.val % 64 = 0) (h1 : t.val % 64 = 63)
    (x4 : Vec Ideal S1x1 .f32) (hx : x4 = iblk m c 4 t) :
    (outsAt0 m c t.val t.isLt).1 (ix2 0 0)
      = combine (fun k => (outsAt0 m c (t.val - 1) (Nat.lt_of_le_of_lt (Nat.sub_le _ _) t.isLt)).2 (ix2 0 ⟨k.val, by have := k.isLt; omega⟩) + rows (iblk m c 0 t) (iblk m c 1 t) (iblk m c 2 t) (iblk m c 3 t) k) (x4 (ix2 0 0)) := by
  subst hx
  rw [outsAt0_C m c t h0 h1]
  exact outC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2

/-- The eleven partial sums of the batch row that grid point `s` reads (zero past the grid). -/
def rowN (c : Dev nD) (s : ℕ) : Fin 11 → Ideal .f32 :=
  if h : s < cfg0.N then rows (iblk m c 0 ⟨s, h⟩) (iblk m c 1 ⟨s, h⟩) (iblk m c 2 ⟨s, h⟩) (iblk m c 3 ⟨s, h⟩) else fun _ => 0

theorem rowN_of_lt (c : Dev nD) (t : Fin cfg0.N) :
    rowN m c t.val = rows (iblk m c 0 t) (iblk m c 1 t) (iblk m c 2 t) (iblk m c 3 t) := by
  unfold rowN; rw [dif_pos t.isLt]

theorem outs_pred (c : Dev nD) (n : ℕ) (h : n + 1 - 1 < cfg0.N) (h' : n < cfg0.N) :
    outsAt0 m c (n + 1 - 1) h = outsAt0 m c n h' := by
  simp only [Nat.add_sub_cancel]

/-- Scratch entry (0, k) after point n: zero plus the k-th partial sums of rows 0 .. n. -/
theorem scratch_eq (c : Dev nD) (k : Fin 11) : ∀ (n : ℕ) (hn : n < cfg0.N),
    (outsAt0 m c n hn).2 (ix2 0 ⟨k.val, by have := k.isLt; omega⟩)
      = Ideal.ofBits .f32 0x00000000#32 + ∑ s ∈ Finset.range (n + 1), rowN m c s k := by
  intro n
  induction n with
  | zero =>
    intro hn
    rw [Finset.sum_range_one]
    exact (stepA m c ⟨0, hn⟩ rfl (by dsimp only; omega) k).trans (congrArg (fun r : Fin 11 → Ideal .f32 => Ideal.ofBits .f32 0x00000000#32 + r k) (rowN_of_lt m c ⟨0, hn⟩).symm)
  | succ n ih =>
    intro hn
    have hN : cfg0.N = 64 := N_0
    have h0 : ¬(⟨n + 1, hn⟩ : Fin cfg0.N).val % 64 = 0 := by dsimp only; omega
    have hstep : (outsAt0 m c (n + 1) hn).2 (ix2 0 ⟨k.val, by have := k.isLt; omega⟩)
        = (outsAt0 m c n (Nat.lt_of_succ_lt hn)).2 (ix2 0 ⟨k.val, by have := k.isLt; omega⟩) + rowN m c (n + 1) k := by
      rw [show rowN m c (n + 1) = _ from rowN_of_lt m c ⟨n + 1, hn⟩, ← outs_pred m c n (Nat.lt_of_le_of_lt (Nat.sub_le _ _) hn) (Nat.lt_of_succ_lt hn)]
      by_cases h1 : (⟨n + 1, hn⟩ : Fin cfg0.N).val % 64 = 63
      · exact stepC m c ⟨n + 1, hn⟩ h0 h1 k
      · exact stepB m c ⟨n + 1, hn⟩ h0 h1 k
    rw [hstep, ih (Nat.lt_of_succ_lt hn), Finset.sum_range_succ (n := n + 1), add_assoc]

/-- The sums over all 64 rows. -/
def totals (c : Dev nD) : Fin 11 → Ideal .f32 :=
  fun k => Ideal.ofBits .f32 0x00000000#32 + ∑ s ∈ Finset.range 64, rowN m c s k

theorem h63 : 63 < cfg0.N := by rw [show cfg0.N = 64 from N_0]; decide

/-- The last point. -/
abbrev t63 : Fin cfg0.N := ⟨63, h63⟩

/-- The result entry the last point stores: the combination of the 64-row sums and the block's mean band weight. -/
theorem out63 (c : Dev nD) (x4 : Vec Ideal S1x1 .f32) (hx : x4 = iblk m c 4 t63) :
    (outsAt0 m c 63 h63).1 (ix2 0 0) = combine (totals m c) (x4 (ix2 0 0)) := by
  refine (stepOut m c t63 (by decide) (by decide) x4 hx).trans ?_
  refine congrArg (fun a => combine a (x4 (ix2 0 0))) (funext fun k => ?_)
  have e := scratch_eq m c k 62 (Nat.lt_of_succ_lt h63)
  rw [show (outsAt0 m c (t63.val - 1) (Nat.lt_of_le_of_lt (Nat.sub_le _ _) t63.isLt)) = outsAt0 m c 62 (Nat.lt_of_succ_lt h63) from outs_pred m c 62 _ _]
  rw [e, ← rowN_of_lt m c t63]
  unfold totals
  rw [Finset.sum_range_succ (n := 63), add_assoc]

end Cert.KernelIdeal.Accum

end
-- ==== Proof.LibLayout3Col.lean ====
/-
  Rank-3 arrays whose last axis is a unit column, and reductions along the last axis, read at an index written by its
  coordinates, for any extents.

  A row quantity kept as a column ([a, b] viewed as [a, b, 1]) and spread along a new last axis ([a, b, 1] to [a, b, c])
  reads the same entry at every position of that axis; one lane of the last axis cut out as a column ([a, b, d] to
  [a, b, 1] at offset o) reads lane o; a column viewed as a matrix again ([a, b, 1] to [a, b]) reads its only lane.
  Row-major positions agree because the unit axis contributes a factor 1 and a coordinate 0.
  On the extended reals a sum along the last axis started at the zero word is the sum over that axis's coordinates, and
  a minimum along the last axis started at the word of plus infinity is the infimum over them.
-/
import Idealize.ShloMosaic.Lib.Pipeline.Value
import Idealize.ShloMosaic.Lib.ValueIdx
import Idealize.ShloMosaic.PureOps.Ideal.Laws

namespace Layout3Col

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) := by
  refine shapeCast_apply x h (ix3 i j u) (ix2 i j) ?_
  have hu : u.val = 0 := by omega
  rw [Shape.rowMajor_val_two, Shape.rowMajor_val_three]
  show i.val * b + j.val = (i.val * b + j.val) * 1 + u.val
  rw [hu, Nat.mul_one, Nat.add_zero]

/-- An `[a, b, 1]` array cast to `[a, b]` reads, at `(i, j)`, the operand's only lane at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) := by
  refine shapeCast_apply x h (ix2 i j) (ix3 i j (0 : Fin 1)) ?_
  rw [Shape.rowMajor_val_two, Shape.rowMajor_val_three]
  show (i.val * b + j.val) * 1 + 0 = i.val * b + j.val
  rw [Nat.mul_one, Nat.add_zero]

/-- An `[a, b, 1]` array broadcast to `[a, b, c]` reads, at `(i, j, k)`, the operand's only lane at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A unit-width slice of the last axis at offset `o` (offset zero on the other axes) reads, at `(i, j, u)`, lane `o`. -/
theorem slice_lane_apply {a b d : ℕ} (x : (⟨3, ![a, b, d]⟩ : Shape).Idx → α) (off : Fin 3 → ℕ)
    (h : (⟨3, ![a, b, d]⟩ : Shape).Slices off ⟨3, ![a, b, 1]⟩) (h0 : off 0 = 0) (h1 : off 1 = 0) (o : Fin d) (h2 : off 2 = o.val)
    (i : Fin a) (j : Fin b) (u : Fin 1) :
    extractStridedSlice ⟨3, ![a, b, 1]⟩ off x h (ix3 i j u) = x (ix3 i j o) := by
  refine extractStridedSlice_apply off x h (ix3 i j u) (ix3 i j o) fun ax => ?_
  match ax with
  | ⟨0, _⟩ => show i.val = off 0 + i.val; rw [h0, Nat.zero_add]
  | ⟨1, _⟩ => show j.val = off 1 + j.val; rw [h1, Nat.zero_add]
  | ⟨2, _⟩ => show o.val = off 2 + u.val; have := u.isLt; omega

/-- The index of an `[a, b, c]` array over `(i, j)` of the reduced `[a, b]` with lane `k` put back is `(i, j, k)`. -/
theorem lift_lane {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext ax; apply Fin.ext
  fin_cases ax <;> rfl

/-- On the extended reals the sum of an `[a, b, c]` array along its last axis is, at `(i, j)`, the sum over `k` of the
    entries `(i, j, k)`. -/
theorem laneSum_apply {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x00000000#32 : BitVec 32) = 0x00000000#32) (i : Fin a) (j : Fin b) :
    multiReduction (F := Ideal) .add [2] ⟨2, ![a, b]⟩ src 0x00000000#32 h hφ hacc (ix2 i j) = ∑ k : Fin c, src (ix3 i j k) := by
  refine (Ideal.multiReduction_add_single src 0x00000000#32 h hφ hacc (ix2 i j)).trans ?_
  exact Finset.sum_congr rfl fun k _ => congrArg src (lift_lane h i j k)

/-- A fold of the minimum from plus infinity over a finite set is the infimum over it. -/
theorem fold_minimumf_eq_inf {ι : Type} [DecidableEq ι] (s : Finset ι) (f : ι → EReal) :
    s.fold (FloatOps.minimumf (F := Ideal) (φ := .f32)) (⊤ : EReal) f = s.inf f := by
  induction s using Finset.induction_on with
  | empty => rw [Finset.fold_empty, Finset.inf_empty]
  | insert a s ha ih =>
    rw [Finset.fold_insert ha, Finset.inf_insert, ih]
    show min (f a) (s.inf f) = f a ⊓ s.inf f
    rfl

/-- On the extended reals the minimum of an `[a, b, c]` array along its last axis, started at plus infinity, is, at
    `(i, j)`, the infimum over `k` of the entries `(i, j, k)`. -/
theorem laneMin_apply {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x7F800000#32 : BitVec 32) = 0x7F800000#32) (i : Fin a) (j : Fin b) :
    multiReduction (F := Ideal) .minimumf [2] ⟨2, ![a, b]⟩ src 0x7F800000#32 h hφ hacc (ix2 i j)
      = Finset.univ.inf fun k : Fin c => src (ix3 i j k) := by
  refine (multiReduction_minimumf_eq_fold src 0x7F800000#32 h hφ hacc (ix2 i j)).trans ?_
  refine (h.fold_filter_drop_single _ _ src (ix2 i j)).trans ?_
  have htop : (FloatOps.ofBits (F := Ideal) .f32 0x7F800000#32 : EReal) = ⊤ := by simp [Ideal.ofBits, Ideal.ieee]
  rw [htop]
  refine (fold_minimumf_eq_inf _ _).trans ?_
  exact Finset.inf_congr rfl fun k _ => congrArg src (lift_lane h i j k)

end Layout3Col
-- ==== Proof.LibLayout3.lean ====
/-
  Three layout operations on arrays of rank 3, read at an index written by its coordinates, for any extents:
  a matrix `[a, b]` given a unit middle axis `[a, 1, b]` reads the same entry; a `[1, b, c]` array broadcast to
  `[a, b, c]` reads its one slab; an `[a, 1, c]` array broadcast to `[a, b, c]` reads its one row per slab.
  (The row-major position of `(i, 0, j)` in `[a, 1, b]` is `(i·1 + 0)·b + j = i·b + j`, that of `(i, j)` in `[a, b]`.)
-/
import Idealize.ShloMosaic.Lib.Pipeline.Value
import Idealize.ShloMosaic.Lib.ValueIdx

namespace Layout3

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b, c]` array broadcast to `[a, b, c]` reads, at `(i, j, k)`, the operand's one slab at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, 1, c]` array broadcast to `[a, b, c]` reads, at `(i, j, k)`, the operand's one row of slab `i` at `k`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout3
-- ==== Proof.LibRowReduce.lean ====
/-
  A rank-3 array reduced to one number the way a kernel body does it: first the sum along the middle axis, the result
  kept as a [1, 1, D] row, then the sum along the last axis, the result reshaped to [1, 1]. Read at its one entry this is
  the double sum, over the last coordinate and then the middle one, of the array's entries. Also here: the sum along
  the middle axis of any [a, b, c] array read at (i, k); a slice along the middle axis read at an index; a sum over
  the index set of a rank-3 array as the triple sum over its coordinates; and, on the extended reals, a finite sum times
  a natural number n as the sum of n copies of each term (no entry assumed finite: multiplication by a nonnegative
  finite factor distributes over every sum of extended reals).
-/
import Idealize.ShloMosaic.Lib.Pipeline.Value
import Idealize.ShloMosaic.Lib.ValueIdx
import Idealize.ShloMosaic.PureOps.Ideal.Laws
import proofs.«155167_j84593675862632_2_alg».proof.Proof.LibLayout3Col
import proofs.«155167_j84593675862632_2_alg».proof.Proof.LibLayout3

open scoped BigOperators

namespace RowReduce

open Idealize.ShloMosaic Idealize.ShloMosaic.ValueIdx

variable {α : Type}

/-- The index of an `[a, b, c]` array over `(i, k)` of the reduced `[a, c]` with middle coordinate `j` put back. -/
theorem lift_mid {a b c : ℕ} (h : (⟨3, ![a, b, c]⟩ : Shape).Reduces [1] (⟨2, ![a, c]⟩ : Shape)) (i : Fin a) (k : Fin c)
    (j : Fin ((⟨3, ![a, b, c]⟩ : Shape).size 1)) : h.lift (ix2 i k) j = ix3 i (⟨j.val, j.isLt⟩ : Fin b) k := by
  funext ax; apply Fin.ext
  fin_cases ax <;> rfl

/-- On the extended reals the sum of an `[a, b, c]` array along its middle axis is, at `(i, k)`, the sum over `j` of
    the entries `(i, j, k)`. -/
theorem midSum_apply {a b c : ℕ} (src : FVec Ideal ⟨3, ![a, b, c]⟩ .f32)
    (h : (⟨3, ![a, b, c]⟩ : Shape).Reduces [1] (⟨2, ![a, c]⟩ : Shape)) (hφ : FKind.Formats .f32)
    (hacc : (0x00000000#32 : BitVec 32) = 0x00000000#32) (i : Fin a) (k : Fin c) :
    multiReduction (F := Ideal) .add [1] ⟨2, ![a, c]⟩ src 0x00000000#32 h hφ hacc (ix2 i k) = ∑ j : Fin b, src (ix3 i j k) := by
  refine (Ideal.multiReduction_add_single src 0x00000000#32 h hφ hacc (ix2 i k)).trans ?_
  exact Finset.sum_congr rfl fun j _ => congrArg src (lift_mid h i k j)

/-- The whole reduction of a `[1, T, D]` array, middle axis first, read at its one entry. -/
theorem redAll_apply {T D : ℕ} (X : FVec Ideal ⟨3, ![1, T, D]⟩ .f32)
    (h1 : (⟨3, ![1, T, D]⟩ : Shape).Reduces [1] (⟨2, ![1, D]⟩ : Shape))
    (c1 : (⟨2, ![1, D]⟩ : Shape).ShapeCasts ⟨3, ![1, 1, D]⟩)
    (h2 : (⟨3, ![1, 1, D]⟩ : Shape).Reduces [2] (⟨2, ![1, 1]⟩ : Shape))
    (c2 : (⟨2, ![1, 1]⟩ : Shape).ShapeCasts ⟨3, ![1, 1, 1]⟩)
    (c3 : (⟨3, ![1, 1, 1]⟩ : Shape).ShapeCasts ⟨2, ![1, 1]⟩) (hφ hφ' : FKind.Formats .f32)
    (hacc hacc' : (0x00000000#32 : BitVec 32) = 0x00000000#32) :
    shapeCast ⟨2, ![1, 1]⟩ (shapeCast ⟨3, ![1, 1, 1]⟩ (multiReduction (F := Ideal) .add [2] ⟨2, ![1, 1]⟩
        (shapeCast ⟨3, ![1, 1, D]⟩ (multiReduction (F := Ideal) .add [1] ⟨2, ![1, D]⟩ X 0x00000000#32 h1 hφ hacc) c1)
        0x00000000#32 h2 hφ' hacc') c2) c3 (ix2 0 0)
      = ∑ d : Fin D, ∑ t : Fin T, X (ix3 0 t d) := by
  rw [Layout3Col.shapeCast_ab1_ab_apply, Layout3Col.shapeCast_ab_ab1_apply, Layout3Col.laneSum_apply]
  refine Finset.sum_congr rfl fun d _ => ?_
  rw [Layout3.shapeCast_ab_a1b_apply, midSum_apply]

/-- A slice along the middle axis, `b'` rows from row `o` on, reads at `(i, j, k)` the operand at `(i, o + j, k)`. -/
theorem slice_mid_apply {a b b' c : ℕ} (x : (⟨3, ![a, b, c]⟩ : Shape).Idx → α) (off : Fin 3 → ℕ) (o : ℕ)
    (h : (⟨3, ![a, b, c]⟩ : Shape).Slices off ⟨3, ![a, b', c]⟩) (h0 : off 0 = 0) (h1 : off 1 = o) (h2 : off 2 = 0)
    (i : Fin a) (j : Fin b') (k : Fin c) (hj : o + j.val < b) :
    extractStridedSlice ⟨3, ![a, b', c]⟩ off x h (ix3 i j k) = x (ix3 i (⟨o + j.val, hj⟩ : Fin b) k) := by
  refine extractStridedSlice_apply off x h (ix3 i j k) (ix3 i (⟨o + j.val, hj⟩ : Fin b) k) fun ax => ?_
  match ax with
  | ⟨0, _⟩ => show i.val = off 0 + i.val; rw [h0, Nat.zero_add]
  | ⟨1, _⟩ => show o + j.val = off 1 + j.val; rw [h1]
  | ⟨2, _⟩ => show k.val = off 2 + k.val; rw [h2, Nat.zero_add]

/-- The same from row 0 on: the operand at `(i, j, k)`. -/
theorem slice_mid_zero_apply {a b b' c : ℕ} (x : (⟨3, ![a, b, c]⟩ : Shape).Idx → α) (off : Fin 3 → ℕ)
    (h : (⟨3, ![a, b, c]⟩ : Shape).Slices off ⟨3, ![a, b', c]⟩) (h0 : off 0 = 0) (h1 : off 1 = 0) (h2 : off 2 = 0)
    (i : Fin a) (j : Fin b') (k : Fin c) (hj : j.val < b) :
    extractStridedSlice ⟨3, ![a, b', c]⟩ off x h (ix3 i j k) = x (ix3 i (⟨j.val, hj⟩ : Fin b) k) := by
  refine extractStridedSlice_apply off x h (ix3 i j k) (ix3 i (⟨j.val, hj⟩ : Fin b) k) fun ax => ?_
  match ax with
  | ⟨0, _⟩ => show i.val = off 0 + i.val; rw [h0, Nat.zero_add]
  | ⟨1, _⟩ => show j.val = off 1 + j.val; rw [h1, Nat.zero_add]
  | ⟨2, _⟩ => show k.val = off 2 + k.val; rw [h2, Nat.zero_add]

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An extended real times a natural number is that many copies of it. -/
theorem mul_natCast_eq_nsmul (x : EReal) : ∀ n : ℕ, x * (n : EReal) = n • x
  | 0 => by simp
  | n + 1 => by
    rw [Nat.cast_succ, EReal.left_distrib_of_nonneg (by exact_mod_cast Nat.zero_le n) zero_le_one, mul_natCast_eq_nsmul x n,
      mul_one, succ_nsmul]

/-- A finite sum of extended reals times a nonnegative finite factor is the sum of the products. -/
theorem sum_mul_of_nonneg {ι : Type*} (s : Finset ι) (g : ι → EReal) (c : EReal) (h0 : 0 ≤ c) (ht : c ≠ ⊤) :
    (∑ t ∈ s, g t) * c = ∑ t ∈ s, g t * c := by
  classical
  induction s using Finset.induction_on with
  | empty => simp
  | insert a s ha ih => rw [Finset.sum_insert ha, Finset.sum_insert ha, EReal.right_distrib_of_nonneg_of_ne_top h0 ht, ih]

/-- So a finite sum times the natural number `n` is the double sum with `n` copies of every term. -/
theorem sum_mul_natCast {ι : Type*} [Fintype ι] (g : ι → EReal) (n : ℕ) :
    (∑ t, g t) * (n : EReal) = ∑ t, ∑ _d : Fin n, g t := by
  rw [sum_mul_of_nonneg _ _ _ (by exact_mod_cast Nat.zero_le n) (by exact_mod_cast EReal.coe_ne_top (n : ℝ))]
  refine Finset.sum_congr rfl fun t _ => ?_
  rw [mul_natCast_eq_nsmul, Finset.sum_const, Finset.card_univ, Fintype.card_fin]

end RowReduce
-- ==== Proof.Blocks.lean ====
/-
  What the windows' blocks hold at grid point t, in terms of the program's arguments.

  Point t reads batch row t: the prediction and target blocks are rows t of the two [64, 4000, 80] arguments; the mask
  block is row t of the [64, 4000] mask given a unit last axis by the host; the weight block is the [80] weight vector
  as a [1, 1, 80] row; the last block is the [1, 1] mean band weight the host computed, (sum of w) / 80.
-/
import proofs.«155167_j84593675862632_2_alg».proof.Proof.Gen.KernelIdeal.Frame
import proofs.«155167_j84593675862632_2_alg».proof.Proof.LibRowReduce
import Idealize.ShloMosaic.Lib.StableHlo.Run
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx Idealize.ShloMosaic.StableHlo

variable (m : (ℓ : Loc nD τ sig) → Buf (Elt Ideal) ℓ)

theorem lt64 (t : Fin cfg0.N) : t.val < 64 := lt_of_lt_of_eq t.isLt N_0

/-- The block indices of the five input windows at point t. -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)

/-- The prediction block at point t is row t of the first argument. -/
theorem blk0 (c : Dev nD) (t : Fin cfg0.N) (r : Fin 4000) (d : Fin 80) :
    (iblk m c 0 t : Vec Ideal S1x4000x80 .f32) (ix3 0 r d)
      = m ((c : Thread nD τ).loc main_arg0) (ix3 (⟨t.val, lt64 t⟩ : Fin 64) r d) := by
  have hi := idx0 t
  unfold iblk
  rw [View.read_apply]
  show V m c main_arg0 _ = _
  rw [V_main_arg0]
  congr 1
  funext a; apply Fin.ext
  match a with
  | ⟨0, _⟩ => show win0_0.index t 0 * 1 + 1 * 0 = t.val; rw [hi.1]; omega
  | ⟨1, _⟩ => show win0_0.index t 1 * 4000 + 1 * r.val = r.val; rw [hi.2.1]; omega
  | ⟨2, _⟩ => show win0_0.index t 2 * 80 + 1 * d.val = d.val; rw [hi.2.2]; omega

/-- The target block at point t is row t of the second argument. -/
theorem blk1 (c : Dev nD) (t : Fin cfg0.N) (r : Fin 4000) (d : Fin 80) :
    (iblk m c 1 t : Vec Ideal S1x4000x80 .f32) (ix3 0 r d)
      = m ((c : Thread nD τ).loc main_arg1) (ix3 (⟨t.val, lt64 t⟩ : Fin 64) r d) := by
  have hi := idx1 t
  unfold iblk
  rw [View.read_apply]
  show V m c main_arg1 _ = _
  rw [V_main_arg1]
  congr 1
  funext a; apply Fin.ext
  match a with
  | ⟨0, _⟩ => show win0_1.index t 0 * 1 + 1 * 0 = t.val; rw [hi.1]; omega
  | ⟨1, _⟩ => show win0_1.index t 1 * 4000 + 1 * r.val = r.val; rw [hi.2.1]; omega
  | ⟨2, _⟩ => show win0_1.index t 2 * 80 + 1 * d.val = d.val; rw [hi.2.2]; omega

/-- The host gives the mask a unit last axis, the weights two unit leading axes, and computes their mean. -/
theorem V_v3 (c : Dev nD) : (V m c main_v3 : S64x4000x1.Idx → Ideal .f32)
    = shapeCast S64x4000x1 (m ((c : Thread nD τ).loc main_arg2)) shapeCasts_S64x4000_S64x4000x1 := by
  show StableHlo.after hostOps0 (fun b => m (c, b)) (Proc.devRef .tc main_v3) = _
  after_results
  rfl
theorem V_v4 (c : Dev nD) : (V m c main_v4 : S1x1x80.Idx → Ideal .f32)
    = shapeCast S1x1x80 (m ((c : Thread nD τ).loc main_arg3)) shapeCasts_S80_S1x1x80 := by
  show StableHlo.after hostOps0 (fun b => m (c, b)) (Proc.devRef .tc main_v4) = _
  after_results
  rfl
theorem V_v2 (c : Dev nD) : (V m c main_v2 : S1x1.Idx → Ideal .f32)
    = shapeCast S1x1 (Host.divf (Host.reduceAdd (m ((c : Thread nD τ).loc main_arg3)) (constant (F := Ideal) S_ .f32 0x00000000#32) reducesTo_S80_S_d0 h_S_)
        (constant (F := Ideal) S_ .f32 0x42A00000#32)) shapeCasts_S_S1x1 := by
  show StableHlo.after hostOps0 (fun b => m (c, b)) (Proc.devRef .tc main_v2) = _
  after_results
  rfl

/-- The mask block at point t is row t of the mask. -/
theorem blk2 (c : Dev nD) (t : Fin cfg0.N) (r : Fin 4000) :
    (iblk m c 2 t : Vec Ideal S1x4000x1 .f32) (ix3 0 r 0)
      = m ((c : Thread nD τ).loc main_arg2) (ix2 (⟨t.val, lt64 t⟩ : Fin 64) r) := by
  have hi := idx2 t
  unfold iblk
  rw [View.read_apply]
  show V m c main_v3 _ = _
  rw [V_v3]
  refine Eq.trans (congrArg _ (?_ : _ = ix3 (⟨t.val, lt64 t⟩ : Fin 64) r (0 : Fin 1))) (Layout3Col.shapeCast_ab_ab1_apply _ _ _ _ _)
  funext a; apply Fin.ext
  match a with
  | ⟨0, _⟩ => show win0_2.index t 0 * 1 + 1 * 0 = t.val; rw [hi.1]; omega
  | ⟨1, _⟩ => show win0_2.index t 1 * 4000 + 1 * r.val = r.val; rw [hi.2.1]; omega
  | ⟨2, _⟩ => show win0_2.index t 2 * 1 + 1 * 0 = 0; rw [hi.2.2]

/-- The weight block is the weight vector. -/
theorem blk3 (c : Dev nD) (t : Fin cfg0.N) (d : Fin 80) :
    (iblk m c 3 t : Vec Ideal S1x1x80 .f32) (ix3 0 0 d) = m ((c : Thread nD τ).loc main_arg3) (ix1 d) := by
  have hi := idx3 t
  unfold iblk
  rw [View.read_apply]
  show V m c main_v4 _ = _
  rw [V_v4]
  refine shapeCast_apply _ _ _ (ix1 d) ?_
  rw [Shape.rowMajor_val_three, Shape.rowMajor_val_one]
  show d.val = ((win0_3.index t 0 * 1 + 1 * 0) * 1 + (win0_3.index t 1 * 1 + 1 * 0)) * 80 + (win0_3.index t 2 * 80 + 1 * d.val)
  rw [hi.1, hi.2.1, hi.2.2]; omega

/-- The mean band weight, as the host computes it: (0 + sum of w) / 80. -/
def meanW (w : S80.Idx → Ideal .f32) : Ideal .f32 :=
  Host.divf (Host.reduceAdd w (constant (F := Ideal) S_ .f32 0x00000000#32) reducesTo_S80_S_d0 h_S_)
    (constant (F := Ideal) S_ .f32 0x42A00000#32) ix0

/-- The last input block holds it. -/
theorem blk4 (c : Dev nD) (t : Fin cfg0.N) (x4 : Vec Ideal S1x1 .f32) (hx : x4 = iblk m c 4 t) :
    x4 (ix2 0 0) = meanW (m ((c : Thread nD τ).loc main_arg3)) := by
  subst hx
  unfold iblk
  rw [View.read_apply]
  show V m c main_v2 _ = _
  rw [V_v2]
  unfold meanW shapeCast
  exact congrArg _ (eq_ix0 _)

end Cert.KernelIdeal.Blocks

end
-- ==== Proof.Spec.lean ====
/-
  One batch row's eleven partial sums, as functions of the row's entries.

  A row is p, q : 4000 frames x 80 bins (prediction and target), a frame mask m : 4000, and band weights w : 80. With
  |z| = max z (-z), first differences dX t = X (t+1) - X t over 3999 frames and second differences d2X t = dX (t+1) - dX t
  over 3998 frames, the masks dm t = m (t+1) m t and d2m t = (m (t+2) m (t+1)) m t, the sums are, bins outside, frames inside:
    0: sum |p - q| m            1: sum (|p - q| m) w        2: 80 (sum m)
    3: sum |dp - dq| dm         4: 80 (sum dm)              5: sum |d2p - d2q| d2m      6: 80 (sum d2m)
    7: sum ((p - q) m)^2        8: sum (q m)^2
    9: sum_t |(sum_d p)/80 - (sum_d q)/80| m               10: sum m
  The counts 2, 4, 6 are also the sums over frames AND bins of the mask: a finite sum of extended reals times 80 is the
  sum of 80 copies of each term, whatever the terms.
-/
import Idealize.ShloMosaic.PureOps.Ideal
import Idealize.ShloMosaic.PureOps.Ideal.Laws
import proofs.«155167_j84593675862632_2_alg».proof.Proof.LibRowReduce

noncomputable section

open scoped BigOperators

namespace LossSpec

open Idealize.ShloMosaic

/-- The absolute value on the extended reals. -/
abbrev ab (z : EReal) : EReal := max z (-z)
/-- The f32 words of 80 and of 0, as extended reals. -/
abbrev w80 : EReal := Ideal.ofBits .f32 0x42A00000#32
abbrev w0 : EReal := Ideal.ofBits .f32 0x00000000#32

theorem w80_eq : w80 = ((80 : ℕ) : EReal) := by
  show Ideal.ofBits .f32 0x42A00000#32 = _
  have : Ideal.ofBits .f32 0x42A00000#32 = ((80 : ℝ) : EReal) := by
    simp [Ideal.ofBits, Ideal.ieee, -EReal.coe_mul]; norm_num
  rw [this]; norm_cast

theorem w0_eq : w0 = 0 := Ideal.ofBits_zero_f32

section Row

variable (P Q : Fin 4000 → Fin 80 → EReal) (M : Fin 4000 → EReal) (W : Fin 80 → EReal)

/-- First differences along the frames. -/
def dF (X : Fin 4000 → Fin 80 → EReal) (t : Fin 3999) (d : Fin 80) : EReal :=
  X ⟨1 + t.val, by have := t.isLt; omega⟩ d - X ⟨t.val, by have := t.isLt; omega⟩ d
/-- Second differences along the frames. -/
def d2F (X : Fin 4000 → Fin 80 → EReal) (t : Fin 3998) (d : Fin 80) : EReal :=
  dF X ⟨1 + t.val, by have := t.isLt; omega⟩ d - dF X ⟨t.val, by have := t.isLt; omega⟩ d
/-- The mask of a first difference: both frames kept. -/
def dM (t : Fin 3999) : EReal := M ⟨1 + t.val, by have := t.isLt; omega⟩ * M ⟨t.val, by have := t.isLt; omega⟩
/-- The mask of a second difference: all three frames kept. -/
def d2M (t : Fin 3998) : EReal :=
  M ⟨2 + t.val, by have := t.isLt; omega⟩ * M ⟨1 + t.val, by have := t.isLt; omega⟩ * M ⟨t.val, by have := t.isLt; omega⟩
/-- The mean over the bins of one frame: the sum divided by 80. -/
def mean (X : Fin 4000 → Fin 80 → EReal) (t : Fin 4000) : EReal := Ideal.div (∑ d : Fin 80, X t d) w80

def r0 : EReal := ∑ d : Fin 80, ∑ t : Fin 4000, ab (P t d - Q t d) * M t
def r1 : EReal := ∑ d : Fin 80, ∑ t : Fin 4000, ab (P t d - Q t d) * M t * W d
def r2 : EReal := (∑ _u : Fin 1, ∑ t : Fin 4000, M t) * w80
def r3 : EReal := ∑ d : Fin 80, ∑ t : Fin 3999, ab (dF P t d - dF Q t d) * dM M t
def r4 : EReal := (∑ _u : Fin 1, ∑ t : Fin 3999, dM M t) * w80
def r5 : EReal := ∑ d : Fin 80, ∑ t : Fin 3998, ab (d2F P t d - d2F Q t d) * d2M M t
def r6 : EReal := (∑ _u : Fin 1, ∑ t : Fin 3998, d2M M t) * w80
def r7 : EReal := ∑ d : Fin 80, ∑ t : Fin 4000, (P t d - Q t d) * M t * ((P t d - Q t d) * M t)
def r8 : EReal := ∑ d : Fin 80, ∑ t : Fin 4000, Q t d * M t * (Q t d * M t)
def r9 : EReal := ∑ _u : Fin 1, ∑ t : Fin 4000, ab (mean P t - mean Q t) * M t
def r10 : EReal := ∑ _u : Fin 1, ∑ t : Fin 4000, M t

/-- The eleven partial sums of the row. -/
def rowSums : Fin 11 → EReal :=
  ![r0 P Q M, r1 P Q M W, r2 M, r3 P Q M, r4 M, r5 P Q M, r6 M, r7 P Q M, r8 Q M, r9 P Q M, r10 M]

/-- A count times 80 is the sum over frames and bins of the mask. -/
theorem count_eq {n : ℕ} (g : Fin n → EReal) : (∑ _u : Fin 1, ∑ t : Fin n, g t) * w80 = ∑ t : Fin n, ∑ _d : Fin 80, g t := by
  rw [Fin.sum_univ_one, w80_eq, RowReduce.sum_mul_natCast]

end Row

end LossSpec

end
-- ==== Proof.RowSums.lean ====
/-
  The body's eleven partial sums of one batch row are the specification's row sums of the row's entries.

  Each is the body's whole reduction (frames first, then bins) of a [1, T', D'] array built from the row's blocks by
  elementwise operations, slices along the frames and spreading the frame mask over the bins; read at (0, t, d) that
  array is the specification's summand at frame t and bin d.
-/
import proofs.«155167_j84593675862632_2_alg».proof.Proof.Gen.KernelIdeal.Skeleton
import proofs.«155167_j84593675862632_2_alg».proof.Proof.Spec
import Idealize.ShloMosaic.Lib.ValueIdx
import Idealize.ShloMosaic.Lib.Pipeline.Value

noncomputable section

open scoped BigOperators

namespace Cert.KernelIdeal.RowSums

open Cert.KernelIdeal Cert.KernelIdeal.Gen LossSpec
open Idealize.ShloMosaic Idealize.ShloMosaic.ValueIdx

/-- A prediction or target block's entries by frame and bin; the mask block's by frame; the weight block's by bin. -/
abbrev Pk (x : Vec Ideal S1x4000x80 .f32) : Fin 4000 → Fin 80 → EReal := fun t d => x (ix3 0 t d)
abbrev Mk (x : Vec Ideal S1x4000x1 .f32) : Fin 4000 → EReal := fun t => x (ix3 0 t 0)
abbrev Wk (x : Vec Ideal S1x1x80 .f32) : Fin 80 → EReal := fun d => x (ix3 0 0 d)

theorem absf_at {s : Shape} (a : FVec Ideal s .f32) (i : s.Idx) : absf a i = ab (a i) := rfl

variable (x0 x1 : Vec Ideal S1x4000x80 .f32) (x2 : Vec Ideal S1x4000x1 .f32) (x3 : Vec Ideal S1x1x80 .f32)

/-- The slices of a [1, 4000, c] block along the frames, from frame 1 and from frame 0, 3999 frames each. -/
theorem sl1_80 (x : Vec Ideal S1x4000x80 .f32) (t : Fin 3999) (d : Fin 80) :
    extractStridedSlice S1x3999x80 ![0, 1, 0] x slices_S1x4000x80_o0_1_0_S1x3999x80 (ix3 0 t d)
      = x (ix3 0 ⟨1 + t.val, by have := t.isLt; omega⟩ d) :=
  RowReduce.slice_mid_apply x _ 1 _ rfl rfl rfl 0 t d _
theorem sl0_80 (x : Vec Ideal S1x4000x80 .f32) (t : Fin 3999) (d : Fin 80) :
    extractStridedSlice S1x3999x80 ![0, 0, 0] x slices_S1x4000x80_o0_0_0_S1x3999x80 (ix3 0 t d)
      = x (ix3 0 ⟨t.val, by have := t.isLt; omega⟩ d) :=
  RowReduce.slice_mid_zero_apply x _ _ rfl rfl rfl 0 t d _
theorem sl1_1 (x : FVec Ideal S1x4000x1 .f32) (t : Fin 3999) (d : Fin 1) :
    extractStridedSlice S1x3999x1 ![0, 1, 0] x slices_S1x4000x1_o0_1_0_S1x3999x1 (ix3 0 t d)
      = x (ix3 0 ⟨1 + t.val, by have := t.isLt; omega⟩ d) :=
  RowReduce.slice_mid_apply x _ 1 _ rfl rfl rfl 0 t d _
theorem sl0_1 (x : FVec Ideal S1x4000x1 .f32) (t : Fin 3999) (d : Fin 1) :
    extractStridedSlice S1x3999x1 ![0, 0, 0] x slices_S1x4000x1_o0_0_0_S1x3999x1 (ix3 0 t d)
      = x (ix3 0 ⟨t.val, by have := t.isLt; omega⟩ d) :=
  RowReduce.slice_mid_zero_apply x _ _ rfl rfl rfl 0 t d _
/-- The slices of a [1, 3999, 80] array of first differences, 3998 frames each. -/
theorem sl1_d (x : FVec Ideal S1x3999x80 .f32) (t : Fin 3998) (d : Fin 80) :
    extractStridedSlice S1x3998x80 ![0, 1, 0] x slices_S1x3999x80_o0_1_0_S1x3998x80 (ix3 0 t d)
      = x (ix3 0 ⟨1 + t.val, by have := t.isLt; omega⟩ d) :=
  RowReduce.slice_mid_apply x _ 1 _ rfl rfl rfl 0 t d _
theorem sl0_d (x : FVec Ideal S1x3999x80 .f32) (t : Fin 3998) (d : Fin 80) :
    extractStridedSlice S1x3998x80 ![0, 0, 0] x slices_S1x3999x80_o0_0_0_S1x3998x80 (ix3 0 t d)
      = x (ix3 0 ⟨t.val, by have := t.isLt; omega⟩ d) :=
  RowReduce.slice_mid_zero_apply x _ _ rfl rfl rfl 0 t d _
/-- The three slices of the mask block for the second differences, 3998 frames each. -/
theorem sl2_m (x : FVec Ideal S1x4000x1 .f32) (t : Fin 3998) (d : Fin 1) :
    extractStridedSlice S1x3998x1 ![0, 2, 0] x slices_S1x4000x1_o0_2_0_S1x3998x1 (ix3 0 t d)
      = x (ix3 0 ⟨2 + t.val, by have := t.isLt; omega⟩ d) :=
  RowReduce.slice_mid_apply x _ 2 _ rfl rfl rfl 0 t d _
theorem sl1_m (x : FVec Ideal S1x4000x1 .f32) (t : Fin 3998) (d : Fin 1) :
    extractStridedSlice S1x3998x1 ![0, 1, 0] x slices_S1x4000x1_o0_1_0_S1x3998x1 (ix3 0 t d)
      = x (ix3 0 ⟨1 + t.val, by have := t.isLt; omega⟩ d) :=
  RowReduce.slice_mid_apply x _ 1 _ rfl rfl rfl 0 t d _
theorem sl0_m (x : FVec Ideal S1x4000x1 .f32) (t : Fin 3998) (d : Fin 1) :
    extractStridedSlice S1x3998x1 ![0, 0, 0] x slices_S1x4000x1_o0_0_0_S1x3998x1 (ix3 0 t d)
      = x (ix3 0 ⟨t.val, by have := t.isLt; omega⟩ d) :=
  RowReduce.slice_mid_zero_apply x _ _ rfl rfl rfl 0 t d _

/-- The first differences of a block, and the masks of the differences, read at an index. -/
theorem pay18_at (t : Fin 3999) (d : Fin 80) : k0_pay18 x0 (ix3 0 t d) = dF (Pk x0) t d := by
  unfold k0_pay18; rw [subf_apply, sl1_80, sl0_80]; rfl
theorem pay19_at (t : Fin 3999) (d : Fin 80) : k0_pay19 x1 (ix3 0 t d) = dF (Pk x1) t d := by
  unfold k0_pay19; rw [subf_apply, sl1_80, sl0_80]; rfl
theorem pay20_at (t : Fin 3999) : k0_pay20 (k0_pay13 x2) (ix3 0 t 0) = dM (Mk x2) t := by
  unfold k0_pay20 k0_pay13; dsimp only; simp only [shapeCast_self]; rw [mulf_apply, sl1_1, sl0_1]; rfl
theorem pay23_at (t : Fin 3998) : k0_pay23 (k0_pay13 x2) (ix3 0 t 0) = d2M (Mk x2) t := by
  unfold k0_pay23 k0_pay13; dsimp only; simp only [shapeCast_self]; rw [mulf_apply, mulf_apply, sl2_m, sl1_m, sl0_m]; rfl

theorem row0_eq : k0_pay15 x0 x1 x2 (ix2 0 0) = r0 (Pk x0) (Pk x1) (Mk x2) := by
  unfold k0_pay15; dsimp only
  refine (RowReduce.redAll_apply _ _ _ _ _ _ _ _ _ _).trans ?_
  refine Finset.sum_congr rfl fun d _ => Finset.sum_congr rfl fun t _ => ?_
  rw [mulf_apply, Layout3Col.broadcastTo_ab1_abc_apply]
  unfold k0_pay14 k0_pay13; simp only [shapeCast_self]
  rfl

theorem row1_eq : k0_pay16 x0 x1 x2 x3 (ix2 0 0) = r1 (Pk x0) (Pk x1) (Mk x2) (Wk x3) := by
  unfold k0_pay16; dsimp only
  refine (RowReduce.redAll_apply _ _ _ _ _ _ _ _ _ _).trans ?_
  refine Finset.sum_congr rfl fun d _ => Finset.sum_congr rfl fun t _ => ?_
  rw [mulf_apply, mulf_apply, Layout3Col.broadcastTo_ab1_abc_apply, Layout3.broadcastTo_a1c_abc_apply]
  unfold k0_pay14 k0_pay13; simp only [shapeCast_self]
  rfl

theorem row2_eq : k0_pay17 x2 (ix2 0 0) = r2 (Mk x2) := by
  unfold k0_pay17; dsimp only
  rw [mulf_apply]
  refine congrArg₂ (· * ·) ((RowReduce.redAll_apply _ _ _ _ _ _ _ _ _ _).trans ?_) rfl
  refine Finset.sum_congr rfl fun u _ => Finset.sum_congr rfl fun t _ => ?_
  unfold k0_pay13; simp only [shapeCast_self]
  rw [Subsingleton.elim u 0]

theorem row3_eq : k0_pay21 x1 (k0_pay13 x2) (k0_pay18 x0) (ix2 0 0) = r3 (Pk x0) (Pk x1) (Mk x2) := by
  unfold k0_pay21; dsimp only
  refine (RowReduce.redAll_apply _ _ _ _ _ _ _ _ _ _).trans ?_
  refine Finset.sum_congr rfl fun d _ => Finset.sum_congr rfl fun t _ => ?_
  rw [mulf_apply, Layout3Col.broadcastTo_ab1_abc_apply, absf_at, subf_apply, pay18_at, pay19_at, pay20_at]

theorem row4_eq : k0_pay22 (k0_pay13 x2) (ix2 0 0) = r4 (Mk x2) := by
  unfold k0_pay22; dsimp only
  rw [mulf_apply]
  refine congrArg₂ (· * ·) ((RowReduce.redAll_apply _ _ _ _ _ _ _ _ _ _).trans ?_) rfl
  refine Finset.sum_congr rfl fun u _ => Finset.sum_congr rfl fun t _ => ?_
  rw [Subsingleton.elim u 0, pay20_at]

theorem row5_eq : k0_pay24 x1 (k0_pay13 x2) (k0_pay18 x0) (ix2 0 0) = r5 (Pk x0) (Pk x1) (Mk x2) := by
  unfold k0_pay24; dsimp only
  refine (RowReduce.redAll_apply _ _ _ _ _ _ _ _ _ _).trans ?_
  refine Finset.sum_congr rfl fun d _ => Finset.sum_congr rfl fun t _ => ?_
  rw [mulf_apply, Layout3Col.broadcastTo_ab1_abc_apply, absf_at, subf_apply, subf_apply, subf_apply, sl1_d, sl0_d, sl1_d, sl0_d,
    pay18_at, pay18_at, pay19_at, pay19_at, pay23_at]
  rfl

theorem row6_eq : k0_pay25 (k0_pay13 x2) (ix2 0 0) = r6 (Mk x2) := by
  unfold k0_pay25; dsimp only
  rw [mulf_apply]
  refine congrArg₂ (· * ·) ((RowReduce.redAll_apply _ _ _ _ _ _ _ _ _ _).trans ?_) rfl
  refine Finset.sum_congr rfl fun u _ => Finset.sum_congr rfl fun t _ => ?_
  rw [Subsingleton.elim u 0, pay23_at]

theorem row7_eq : k0_pay27 (k0_pay13 x2) (k0_pay26 x0 x1) (ix2 0 0) = r7 (Pk x0) (Pk x1) (Mk x2) := by
  unfold k0_pay27; dsimp only
  refine (RowReduce.redAll_apply _ _ _ _ _ _ _ _ _ _).trans ?_
  refine Finset.sum_congr rfl fun d _ => Finset.sum_congr rfl fun t _ => ?_
  rw [mulf_apply, mulf_apply, Layout3Col.broadcastTo_ab1_abc_apply]
  unfold k0_pay26 k0_pay13; simp only [shapeCast_self]
  rfl

theorem row8_eq : k0_pay28 x1 (k0_pay13 x2) (ix2 0 0) = r8 (Pk x1) (Mk x2) := by
  unfold k0_pay28; dsimp only
  refine (RowReduce.redAll_apply _ _ _ _ _ _ _ _ _ _).trans ?_
  refine Finset.sum_congr rfl fun d _ => Finset.sum_congr rfl fun t _ => ?_
  rw [mulf_apply, mulf_apply, Layout3Col.broadcastTo_ab1_abc_apply]
  unfold k0_pay13; simp only [shapeCast_self]

theorem row9_eq : k0_pay29 x0 x1 (k0_pay13 x2) (ix2 0 0) = r9 (Pk x0) (Pk x1) (Mk x2) := by
  unfold k0_pay29; dsimp only
  refine (RowReduce.redAll_apply _ _ _ _ _ _ _ _ _ _).trans ?_
  refine Finset.sum_congr rfl fun u _ => Finset.sum_congr rfl fun t _ => ?_
  rw [Subsingleton.elim u 0, mulf_apply, absf_at, subf_apply, divf_apply, divf_apply,
    Layout3Col.shapeCast_ab_ab1_apply, Layout3Col.shapeCast_ab_ab1_apply, Layout3Col.laneSum_apply, Layout3Col.laneSum_apply]
  unfold k0_pay13; simp only [shapeCast_self]
  rfl

theorem row10_eq : k0_pay30 (k0_pay13 x2) (ix2 0 0) = r10 (Mk x2) := by
  unfold k0_pay30; dsimp only
  refine (RowReduce.redAll_apply _ _ _ _ _ _ _ _ _ _).trans ?_
  refine Finset.sum_congr rfl fun u _ => Finset.sum_congr rfl fun t _ => ?_
  unfold k0_pay13; simp only [shapeCast_self]
  rw [Subsingleton.elim u 0]

end Cert.KernelIdeal.RowSums

end
-- ==== Proof.KernelRun.lean ====
/-
  The kernel's run, read: the one write-back, after the last grid point, fills the [1, 1] result array with the
  combination of the 64-row sums and the mean band weight; the host's closing reshape returns that number. The sums
  over the grid points are sums over the batch rows of the specification's row sums of the arguments' entries.
-/
import proofs.«155167_j84593675862632_2_alg».proof.Proof.Accum
import proofs.«155167_j84593675862632_2_alg».proof.Proof.Blocks
import proofs.«155167_j84593675862632_2_alg».proof.Proof.RowSums
import Idealize.ShloMosaic.Lib.Pipeline.Value
import Idealize.ShloMosaic.Lib.StableHlo.Run

set_option maxRecDepth 16384

noncomputable section

open scoped BigOperators

namespace Cert.KernelIdeal.Result

open Cert.KernelIdeal Cert.KernelIdeal.Gen Cert.KernelIdeal.Cells Cert.KernelIdeal.Accum Cert.KernelIdeal.Blocks
open Cert.KernelIdeal.RowSums LossSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The body's partial sums of a row are the specification's row sums of the blocks' entries. -/
theorem rows_eq (x0 x1 : Vec Ideal S1x4000x80 .f32) (x2 : Vec Ideal S1x4000x1 .f32) (x3 : Vec Ideal S1x1x80 .f32) (k : Fin 11) :
    rows x0 x1 x2 x3 k = rowSums (Pk x0) (Pk x1) (Mk x2) (Wk x3) k := by
  fin_cases k
  · exact row0_eq x0 x1 x2
  · exact row1_eq x0 x1 x2 x3
  · exact row2_eq x2
  · exact row3_eq x0 x1 x2
  · exact row4_eq x2
  · exact row5_eq x0 x1 x2
  · exact row6_eq x2
  · exact row7_eq x0 x1 x2
  · exact row8_eq x1 x2
  · exact row9_eq x0 x1 x2
  · exact row10_eq x2

/-- Row b of the arguments, by frame and bin. -/
abbrev A0 (c : Dev nD) (b : Fin 64) : Fin 4000 → Fin 80 → EReal := fun t d => m ((c : Thread nD τ).loc main_arg0) (ix3 b t d)
abbrev A1 (c : Dev nD) (b : Fin 64) : Fin 4000 → Fin 80 → EReal := fun t d => m ((c : Thread nD τ).loc main_arg1) (ix3 b t d)
abbrev A2 (c : Dev nD) (b : Fin 64) : Fin 4000 → EReal := fun t => m ((c : Thread nD τ).loc main_arg2) (ix2 b t)
abbrev A3 (c : Dev nD) : Fin 80 → EReal := fun d => m ((c : Thread nD τ).loc main_arg3) (ix1 d)

/-- The partial sums grid point t adds are the row sums of batch row t. -/
theorem rowN_eq (c : Dev nD) (b : Fin 64) (k : Fin 11) :
    rowN m c b.val k = rowSums (A0 m c b) (A1 m c b) (A2 m c b) (A3 m c) k := by
  have hb : b.val < cfg0.N := by rw [show cfg0.N = 64 from N_0]; exact b.isLt
  rw [rowN_of_lt m c ⟨b.val, hb⟩, rows_eq]
  have e0 : Pk (iblk m c 0 ⟨b.val, hb⟩) = A0 m c b := funext fun t => funext fun d => blk0 m c ⟨b.val, hb⟩ t d
  have e1 : Pk (iblk m c 1 ⟨b.val, hb⟩) = A1 m c b := funext fun t => funext fun d => blk1 m c ⟨b.val, hb⟩ t d
  have e2 : Mk (iblk m c 2 ⟨b.val, hb⟩) = A2 m c b := funext fun t => blk2 m c ⟨b.val, hb⟩ t
  have e3 : Wk (iblk m c 3 ⟨b.val, hb⟩) = A3 m c := funext fun d => blk3 m c ⟨b.val, hb⟩ d
  rw [e0, e1, e2, e3]

/-- The eleven sums over all batch rows. -/
def sums (c : Dev nD) : Fin 11 → EReal := fun k => w0 + ∑ b : Fin 64, rowSums (A0 m c b) (A1 m c b) (A2 m c b) (A3 m c) k

theorem totals_eq (c : Dev nD) : totals m c = sums m c := by
  funext k
  unfold totals sums
  rw [Finset.sum_range]
  exact congrArg (w0 + ·) (Finset.sum_congr rfl fun b _ => rowN_eq m c b k)

/-- The number the kernel returns. -/
def total (c : Dev nD) : Ideal .f32 := combine (sums m c) (meanW (m ((c : Thread nD τ).loc main_arg3)))

theorem out_total (c : Dev nD) : (outsAt0 m c 63 h63).1 (ix2 0 0) = total m c := by
  rw [out63 m c (iblk m c 4 t63) rfl, totals_eq, blk4 m c t63 (iblk m c 4 t63) rfl]; rfl

/-- The result array filled with it. -/
def G (c : Dev nD) : Buf (Elt Ideal) ((c : Thread nD τ).loc main_v5) := fun _ => total m c

/-- The one write-back, at the last point, writes it. -/
theorem flushed_eq (c : Dev nD) (t : Fin cfg0.N) (hf : (cfg0.win 5).flush t = true) :
    (dats m 0 c).flushed 5 t = ((cfg0.win 5).blk t).view.read (Elt Ideal) (G m c) := by
  have h3 : t.val = 63 := by have := (flush0_5 t).mp hf; have := lt64 t; omega
  obtain rfl : t = t63 := Fin.ext h3
  show (cfg0.win 5).cut (grid0.coords t63) ((dats m 0 c).after 5 t63) = _
  rw [after0_5]
  funext j
  rw [View.read_apply]
  show (outsAt0 m c 63 h63).1 _ = total m c
  exact (congrArg _ (idx11 _)).trans (out_total m c)

/-- So the result array ends holding it: the last point's block is the whole [1, 1] array. -/
theorem final (c : Dev nD) : (dats m 0 c).arrAt 5 cfg0.N = G m c :=
  (dats m 0 c).arrAt_eq_of_cover 5 (G m c) (flushed_eq m c) fun i =>
    ⟨t63, (flush0_5 t63).mpr (by decide), by
      show i ∈ ((View.whole main_v5).slice (win0_5.rect t63)).set
      rw [View.set_slice_whole, Rect.mem_set_unit]
      intro a
      have h0 : (i 0 : Nat) < 1 := (i 0).isLt
      have h1 : (i 1 : Nat) < 1 := (i 1).isLt
      match a with
      | ⟨0, _⟩ => show win0_5.index t63 0 * win0_5.size 0 ≤ (i 0 : Nat) ∧ (i 0 : Nat) < win0_5.index t63 0 * win0_5.size 0 + win0_5.xsize (grid0.coords t63) 0
                  rw [show win0_5.index t63 0 * win0_5.size 0 = 0 from by decide +kernel, show win0_5.xsize (grid0.coords t63) 0 = 1 from by decide +kernel]; omega
      | ⟨1, _⟩ => show win0_5.index t63 1 * win0_5.size 1 ≤ (i 1 : Nat) ∧ (i 1 : Nat) < win0_5.index t63 1 * win0_5.size 1 + win0_5.xsize (grid0.coords t63) 1
                  rw [show win0_5.index t63 1 * win0_5.size 1 = 0 from by decide +kernel, show win0_5.xsize (grid0.coords t63) 1 = 1 from by decide +kernel]; omega⟩

/-- The host's closing reshape of the result array to a scalar. -/
theorem tail_eq (c : Dev nD) :
    Pipeline.afterTail₀ cfgs (dats m) 0 (V0 m) [hostOps1] c main_v6 = fun _ => total m c := by
  unfold Pipeline.afterTail₀
  show StableHlo.after hostOps1 _ (Proc.devRef .tc main_v6) = _
  after_results
  funext i
  show shapeCast S_ (Pipeline.withArrays spec0 c (V0 m c) (fun w => (dats m 0 c).arrAt w cfg0.N)
    (Proc.devRef .tc (Pipeline.arrRef spec0 5))) shapeCasts_S1x1_S_ i = total m c
  rw [Pipeline.withArrays_arr spec0 launch0.win.arr_inj c _ _ 5, final m c]
  rfl

/-- The run, read: the result at that number, the arguments unchanged. -/
theorem run : θ_run defs (onTc (τ := τ) (main (F := Ideal))) ⟨m, fun _ => 0, ρ⟩ fun r => ∀ c : Dev nD,
      r.2.mem ((c.tc : Thread nD τ).loc main_v6) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Result

end
-- ==== Proof.RefSums.lean ====
/-
  The reference's eleven sums, read one operation at a time, are the sums over the 64 batch rows of the specification's
  row sums; its result is the same combination of them and of the mean band weight as the kernel's last grid point forms.
-/
import proofs.«155167_j84593675862632_2_alg».proof.Proof.Gen.ReferenceIdeal.Read
import proofs.«155167_j84593675862632_2_alg».proof.Proof.Spec
import Idealize.ShloMosaic.Lib.ValueIdx
import Idealize.ShloMosaic.PureOps.Ideal.Laws

noncomputable section

open scoped BigOperators

namespace Cert.ReferenceIdeal.RefSums

open Cert.ReferenceIdeal Cert.ReferenceIdeal.Read LossSpec
open Idealize.ShloMosaic Idealize.ShloMosaic.ValueIdx

/-- Row b of a [64, 4000, 80] argument by frame and bin; row b of the mask by frame; the weights by bin. -/
abbrev Pa (a : (⟨S64x4000x80, .f32⟩ : BufTy).Contents (Elt Ideal)) (b : Fin 64) : Fin 4000 → Fin 80 → EReal := fun t d => a (ix3 b t d)
abbrev Ma (a : (⟨S64x4000, .f32⟩ : BufTy).Contents (Elt Ideal)) (b : Fin 64) : Fin 4000 → EReal := fun t => a (ix2 b t)
abbrev Wa (a : (⟨S80, .f32⟩ : BufTy).Contents (Elt Ideal)) : Fin 80 → EReal := fun d => a (ix1 d)

variable (a0 a1 : (⟨S64x4000x80, .f32⟩ : BufTy).Contents (Elt Ideal)) (a2 : (⟨S64x4000, .f32⟩ : BufTy).Contents (Elt Ideal))
  (a3 : (⟨S80, .f32⟩ : BufTy).Contents (Elt Ideal))

/-- An index function is determined by its coordinates. -/
macro "ixeq" : tactic => `(tactic| (funext a; apply Fin.ext; fin_cases a <;> rfl))

/-! ## The layout stages in coordinates -/

theorem v0_ix (b : Fin 64) (t : Fin 4000) (u : Fin 1) : val_main_v0 (F := Ideal) a2 (ix3 b t u) = a2 (ix2 b t) :=
  (val_main_v0_apply a2 _).trans (congrArg a2 (by ixeq))
theorem v3_ix (b : Fin 64) (t : Fin 4000) (d : Fin 80) : val_main_v3 (F := Ideal) a2 (ix3 b t d) = a2 (ix2 b t) :=
  (val_main_v3_apply a2 _).trans ((congrArg (val_main_v0 (F := Ideal) a2) (by ixeq : _ = ix3 b t (0 : Fin 1))).trans (v0_ix a2 b t 0))
theorem v6_ix (b : Fin 64) (t : Fin 4000) (d : Fin 80) : val_main_v6 (F := Ideal) a2 (ix3 b t d) = a2 (ix2 b t) :=
  (val_main_v6_apply a2 _).trans ((congrArg (val_main_v0 (F := Ideal) a2) (by ixeq : _ = ix3 b t (0 : Fin 1))).trans (v0_ix a2 b t 0))
theorem v51_ix (b : Fin 64) (t : Fin 4000) (d : Fin 80) : val_main_v51 (F := Ideal) a2 (ix3 b t d) = a2 (ix2 b t) :=
  (val_main_v51_apply a2 _).trans ((congrArg (val_main_v0 (F := Ideal) a2) (by ixeq : _ = ix3 b t (0 : Fin 1))).trans (v0_ix a2 b t 0))
theorem v53_ix (b : Fin 64) (t : Fin 4000) (d : Fin 80) : val_main_v53 (F := Ideal) a2 (ix3 b t d) = a2 (ix2 b t) :=
  (val_main_v53_apply a2 _).trans ((congrArg (val_main_v0 (F := Ideal) a2) (by ixeq : _ = ix3 b t (0 : Fin 1))).trans (v0_ix a2 b t 0))
theorem v55_ix (b : Fin 64) (t : Fin 4000) (d : Fin 80) : val_main_v55 (F := Ideal) a2 (ix3 b t d) = a2 (ix2 b t) :=
  (val_main_v55_apply a2 _).trans ((congrArg (val_main_v0 (F := Ideal) a2) (by ixeq : _ = ix3 b t (0 : Fin 1))).trans (v0_ix a2 b t 0))
theorem v71_ix (b : Fin 64) (t : Fin 4000) (d : Fin 80) : val_main_v71 (F := Ideal) a2 (ix3 b t d) = a2 (ix2 b t) :=
  (val_main_v71_apply a2 _).trans ((congrArg (val_main_v0 (F := Ideal) a2) (by ixeq : _ = ix3 b t (0 : Fin 1))).trans (v0_ix a2 b t 0))
theorem v74_ix (b : Fin 64) (t : Fin 4000) (d : Fin 80) : val_main_v74 (F := Ideal) a2 (ix3 b t d) = a2 (ix2 b t) :=
  (val_main_v74_apply a2 _).trans ((congrArg (val_main_v0 (F := Ideal) a2) (by ixeq : _ = ix3 b t (0 : Fin 1))).trans (v0_ix a2 b t 0))

theorem v10_ix (b : Fin 64) (t : Fin 3999) (d : Fin 80) : val_main_v10 (F := Ideal) a0 (ix3 b t d) = a0 (ix3 b ⟨1 + t.val, by have := t.isLt; omega⟩ d) :=
  (val_main_v10_apply a0 _).trans (congrArg a0 (by ixeq))
theorem v11_ix (b : Fin 64) (t : Fin 3999) (d : Fin 80) : val_main_v11 (F := Ideal) a0 (ix3 b t d) = a0 (ix3 b ⟨t.val, by have := t.isLt; omega⟩ d) :=
  (val_main_v11_apply a0 _).trans (congrArg a0 (by ixeq))
theorem v13_ix (b : Fin 64) (t : Fin 3999) (d : Fin 80) : val_main_v13 (F := Ideal) a1 (ix3 b t d) = a1 (ix3 b ⟨1 + t.val, by have := t.isLt; omega⟩ d) :=
  (val_main_v13_apply a1 _).trans (congrArg a1 (by ixeq))
theorem v14_ix (b : Fin 64) (t : Fin 3999) (d : Fin 80) : val_main_v14 (F := Ideal) a1 (ix3 b t d) = a1 (ix3 b ⟨t.val, by have := t.isLt; omega⟩ d) :=
  (val_main_v14_apply a1 _).trans (congrArg a1 (by ixeq))
theorem v12_ix (b : Fin 64) (t : Fin 3999) (d : Fin 80) : val_main_v12 (F := Ideal) a0 (ix3 b t d) = dF (Pa a0 b) t d := by
  rw [val_main_v12_apply, v10_ix, v11_ix]; rfl
theorem v15_ix (b : Fin 64) (t : Fin 3999) (d : Fin 80) : val_main_v15 (F := Ideal) a1 (ix3 b t d) = dF (Pa a1 b) t d := by
  rw [val_main_v15_apply, v13_ix, v14_ix]; rfl
theorem v16_ix (b : Fin 64) (t : Fin 3999) : val_main_v16 (F := Ideal) a2 (ix2 b t) = a2 (ix2 b ⟨1 + t.val, by have := t.isLt; omega⟩) :=
  (val_main_v16_apply a2 _).trans (congrArg a2 (by ixeq))
theorem v17_ix (b : Fin 64) (t : Fin 3999) : val_main_v17 (F := Ideal) a2 (ix2 b t) = a2 (ix2 b ⟨t.val, by have := t.isLt; omega⟩) :=
  (val_main_v17_apply a2 _).trans (congrArg a2 (by ixeq))
theorem v18_ix (b : Fin 64) (t : Fin 3999) : val_main_v18 (F := Ideal) a2 (ix2 b t) = dM (Ma a2 b) t := by
  rw [val_main_v18_apply, v16_ix, v17_ix]; rfl
theorem v19_ix (b : Fin 64) (t : Fin 3999) (u : Fin 1) : val_main_v19 (F := Ideal) a2 (ix3 b t u) = dM (Ma a2 b) t :=
  (val_main_v19_apply a2 _).trans ((congrArg (val_main_v18 (F := Ideal) a2) (by ixeq : _ = ix2 b t)).trans (v18_ix a2 b t))
theorem v22_ix (b : Fin 64) (t : Fin 3999) (d : Fin 80) : val_main_v22 (F := Ideal) a2 (ix3 b t d) = dM (Ma a2 b) t :=
  (val_main_v22_apply a2 _).trans ((congrArg (val_main_v19 (F := Ideal) a2) (by ixeq : _ = ix3 b t (0 : Fin 1))).trans (v19_ix a2 b t 0))
theorem v25_ix (b : Fin 64) (t : Fin 3999) (d : Fin 80) : val_main_v25 (F := Ideal) a2 (ix3 b t d) = dM (Ma a2 b) t :=
  (val_main_v25_apply a2 _).trans ((congrArg (val_main_v19 (F := Ideal) a2) (by ixeq : _ = ix3 b t (0 : Fin 1))).trans (v19_ix a2 b t 0))

theorem v29_ix (b : Fin 64) (t : Fin 3998) (d : Fin 80) : val_main_v29 (F := Ideal) a0 (ix3 b t d) = dF (Pa a0 b) ⟨1 + t.val, by have := t.isLt; omega⟩ d :=
  (val_main_v29_apply a0 _).trans ((congrArg (val_main_v12 (F := Ideal) a0) (by ixeq : _ = ix3 b (⟨1 + t.val, by have := t.isLt; omega⟩ : Fin 3999) d)).trans (v12_ix a0 b _ d))
theorem v30_ix (b : Fin 64) (t : Fin 3998) (d : Fin 80) : val_main_v30 (F := Ideal) a0 (ix3 b t d) = dF (Pa a0 b) ⟨t.val, by have := t.isLt; omega⟩ d :=
  (val_main_v30_apply a0 _).trans ((congrArg (val_main_v12 (F := Ideal) a0) (by ixeq : _ = ix3 b (⟨t.val, by have := t.isLt; omega⟩ : Fin 3999) d)).trans (v12_ix a0 b _ d))
theorem v32_ix (b : Fin 64) (t : Fin 3998) (d : Fin 80) : val_main_v32 (F := Ideal) a1 (ix3 b t d) = dF (Pa a1 b) ⟨1 + t.val, by have := t.isLt; omega⟩ d :=
  (val_main_v32_apply a1 _).trans ((congrArg (val_main_v15 (F := Ideal) a1) (by ixeq : _ = ix3 b (⟨1 + t.val, by have := t.isLt; omega⟩ : Fin 3999) d)).trans (v15_ix a1 b _ d))
theorem v33_ix (b : Fin 64) (t : Fin 3998) (d : Fin 80) : val_main_v33 (F := Ideal) a1 (ix3 b t d) = dF (Pa a1 b) ⟨t.val, by have := t.isLt; omega⟩ d :=
  (val_main_v33_apply a1 _).trans ((congrArg (val_main_v15 (F := Ideal) a1) (by ixeq : _ = ix3 b (⟨t.val, by have := t.isLt; omega⟩ : Fin 3999) d)).trans (v15_ix a1 b _ d))
theorem v31_ix (b : Fin 64) (t : Fin 3998) (d : Fin 80) : val_main_v31 (F := Ideal) a0 (ix3 b t d) = d2F (Pa a0 b) t d := by
  rw [val_main_v31_apply, v29_ix, v30_ix]; rfl
theorem v34_ix (b : Fin 64) (t : Fin 3998) (d : Fin 80) : val_main_v34 (F := Ideal) a1 (ix3 b t d) = d2F (Pa a1 b) t d := by
  rw [val_main_v34_apply, v32_ix, v33_ix]; rfl
theorem v35_ix (b : Fin 64) (t : Fin 3998) : val_main_v35 (F := Ideal) a2 (ix2 b t) = a2 (ix2 b ⟨2 + t.val, by have := t.isLt; omega⟩) :=
  (val_main_v35_apply a2 _).trans (congrArg a2 (by ixeq))
theorem v36_ix (b : Fin 64) (t : Fin 3998) : val_main_v36 (F := Ideal) a2 (ix2 b t) = a2 (ix2 b ⟨1 + t.val, by have := t.isLt; omega⟩) :=
  (val_main_v36_apply a2 _).trans (congrArg a2 (by ixeq))
theorem v38_ix (b : Fin 64) (t : Fin 3998) : val_main_v38 (F := Ideal) a2 (ix2 b t) = a2 (ix2 b ⟨t.val, by have := t.isLt; omega⟩) :=
  (val_main_v38_apply a2 _).trans (congrArg a2 (by ixeq))
theorem v39_ix (b : Fin 64) (t : Fin 3998) : val_main_v39 (F := Ideal) a2 (ix2 b t) = d2M (Ma a2 b) t := by
  rw [val_main_v39_apply, val_main_v37_apply, v35_ix, v36_ix, v38_ix]; rfl
theorem v40_ix (b : Fin 64) (t : Fin 3998) (u : Fin 1) : val_main_v40 (F := Ideal) a2 (ix3 b t u) = d2M (Ma a2 b) t :=
  (val_main_v40_apply a2 _).trans ((congrArg (val_main_v39 (F := Ideal) a2) (by ixeq : _ = ix2 b t)).trans (v39_ix a2 b t))
theorem v43_ix (b : Fin 64) (t : Fin 3998) (d : Fin 80) : val_main_v43 (F := Ideal) a2 (ix3 b t d) = d2M (Ma a2 b) t :=
  (val_main_v43_apply a2 _).trans ((congrArg (val_main_v40 (F := Ideal) a2) (by ixeq : _ = ix3 b t (0 : Fin 1))).trans (v40_ix a2 b t 0))
theorem v46_ix (b : Fin 64) (t : Fin 3998) (d : Fin 80) : val_main_v46 (F := Ideal) a2 (ix3 b t d) = d2M (Ma a2 b) t :=
  (val_main_v46_apply a2 _).trans ((congrArg (val_main_v40 (F := Ideal) a2) (by ixeq : _ = ix3 b t (0 : Fin 1))).trans (v40_ix a2 b t 0))

theorem v68_ix (u v : Fin 1) (d : Fin 80) : val_main_v68 (F := Ideal) a3 (ix3 u v d) = a3 (ix1 d) :=
  (val_main_v68_apply a3 _).trans (congrArg a3 (by ixeq))
theorem v69_ix (b : Fin 64) (t : Fin 4000) (d : Fin 80) : val_main_v69 (F := Ideal) a3 (ix3 b t d) = a3 (ix1 d) :=
  (val_main_v69_apply a3 _).trans ((congrArg (val_main_v68 (F := Ideal) a3) (by ixeq : _ = ix3 (0 : Fin 1) (0 : Fin 1) d)).trans (v68_ix a3 0 0 d))

theorem v83_ix (b : Fin 64) (t : Fin 4000) : val_main_v83 (F := Ideal) a0 (ix2 b t) = mean (Pa a0 b) t := by
  rw [val_main_v83_apply, val_main_v81_apply, val_main_v82_apply]
  show Ideal.div (w0 + ∑ k : Fin 80, a0 (idx_main_v81 (ix2 b t) k)) w80 = _
  rw [w0_eq, zero_add]
  exact congrArg (fun s => Ideal.div s w80) (Finset.sum_congr rfl fun k _ => congrArg a0 (by ixeq))
theorem v86_ix (b : Fin 64) (t : Fin 4000) : val_main_v86 (F := Ideal) a1 (ix2 b t) = mean (Pa a1 b) t := by
  rw [val_main_v86_apply, val_main_v84_apply, val_main_v85_apply]
  show Ideal.div (w0 + ∑ k : Fin 80, a1 (idx_main_v84 (ix2 b t) k)) w80 = _
  rw [w0_eq, zero_add]
  exact congrArg (fun s => Ideal.div s w80) (Finset.sum_congr rfl fun k _ => congrArg a1 (by ixeq))

/-! ## The eleven sums -/

/-- A sum over every index of a [64, T, 80] array, regrouped by row, then bins outside and frames inside. -/
theorem regroup {T : ℕ} (f : (⟨3, ![64, T, 80]⟩ : Shape).Idx → EReal) (g : Fin 64 → Fin 80 → Fin T → EReal)
    (h : ∀ b t d, f (ix3 b t d) = g b d t) : ∑ j, f j = ∑ b : Fin 64, ∑ d : Fin 80, ∑ t : Fin T, g b d t := by
  rw [RowReduce.sum_idx3]
  refine Finset.sum_congr rfl fun b _ => ?_
  refine Finset.sum_comm.trans ?_
  exact Finset.sum_congr rfl fun d _ => Finset.sum_congr rfl fun t _ => h b t d

theorem s0 (i : S_.Idx) : val_main_v8 (F := Ideal) a0 a1 a2 i = w0 + ∑ b : Fin 64, r0 (Pa a0 b) (Pa a1 b) (Ma a2 b) := by
  rw [val_main_v8_apply]
  refine congrArg₂ (· + ·) rfl (regroup _ _ fun b t d => ?_)
  rw [val_main_v7_apply, val_main_v2_apply, val_main_v1_apply, v6_ix]; rfl

theorem s1 (i : S_.Idx) : val_main_v76 (F := Ideal) a0 a1 a2 a3 i = w0 + ∑ b : Fin 64, r1 (Pa a0 b) (Pa a1 b) (Ma a2 b) (Wa a3) := by
  rw [val_main_v76_apply]
  refine congrArg₂ (· + ·) rfl (regroup _ _ fun b t d => ?_)
  rw [val_main_v75_apply, val_main_v70_apply, val_main_v2_apply, val_main_v1_apply, v69_ix, v74_ix]
  exact mul_right_comm _ _ _

theorem s2 (i : S_.Idx) : val_main_v4 (F := Ideal) a2 i = w0 + ∑ b : Fin 64, r2 (Ma a2 b) := by
  rw [val_main_v4_apply]
  refine congrArg₂ (· + ·) rfl ?_
  rw [RowReduce.sum_idx3]
  refine Finset.sum_congr rfl fun b _ => ?_
  unfold r2; rw [count_eq]
  exact Finset.sum_congr rfl fun t _ => Finset.sum_congr rfl fun d _ => v3_ix a2 b t d

theorem s3 (i : S_.Idx) : val_main_v27 (F := Ideal) a0 a1 a2 i = w0 + ∑ b : Fin 64, r3 (Pa a0 b) (Pa a1 b) (Ma a2 b) := by
  rw [val_main_v27_apply]
  refine congrArg₂ (· + ·) rfl (regroup _ _ fun b t d => ?_)
  rw [val_main_v26_apply, val_main_v21_apply, val_main_v20_apply, v12_ix, v15_ix, v25_ix]; rfl

theorem s4 (i : S_.Idx) : val_main_v23 (F := Ideal) a2 i = w0 + ∑ b : Fin 64, r4 (Ma a2 b) := by
  rw [val_main_v23_apply]
  refine congrArg₂ (· + ·) rfl ?_
  rw [RowReduce.sum_idx3]
  refine Finset.sum_congr rfl fun b _ => ?_
  unfold r4; rw [count_eq]
  exact Finset.sum_congr rfl fun t _ => Finset.sum_congr rfl fun d _ => v22_ix a2 b t d

theorem s5 (i : S_.Idx) : val_main_v48 (F := Ideal) a0 a1 a2 i = w0 + ∑ b : Fin 64, r5 (Pa a0 b) (Pa a1 b) (Ma a2 b) := by
  rw [val_main_v48_apply]
  refine congrArg₂ (· + ·) rfl (regroup _ _ fun b t d => ?_)
  rw [val_main_v47_apply, val_main_v42_apply, val_main_v41_apply, v31_ix, v34_ix, v46_ix]; rfl

theorem s6 (i : S_.Idx) : val_main_v44 (F := Ideal) a2 i = w0 + ∑ b : Fin 64, r6 (Ma a2 b) := by
  rw [val_main_v44_apply]
  refine congrArg₂ (· + ·) rfl ?_
  rw [RowReduce.sum_idx3]
  refine Finset.sum_congr rfl fun b _ => ?_
  unfold r6; rw [count_eq]
  exact Finset.sum_congr rfl fun t _ => Finset.sum_congr rfl fun d _ => v43_ix a2 b t d

theorem s7 (i : S_.Idx) : val_main_v59 (F := Ideal) a0 a1 a2 i = w0 + ∑ b : Fin 64, r7 (Pa a0 b) (Pa a1 b) (Ma a2 b) := by
  rw [val_main_v59_apply]
  refine congrArg₂ (· + ·) rfl (regroup _ _ fun b t d => ?_)
  rw [val_main_v58_apply, val_main_v52_apply, val_main_v50_apply, v51_ix]; rfl

theorem s8 (i : S_.Idx) : val_main_v63 (F := Ideal) a1 a2 i = w0 + ∑ b : Fin 64, r8 (Pa a1 b) (Ma a2 b) := by
  rw [val_main_v63_apply]
  refine congrArg₂ (· + ·) rfl (regroup _ _ fun b t d => ?_)
  rw [val_main_v62_apply, val_main_v54_apply, v53_ix]; rfl

theorem s9 (i : S_.Idx) : val_main_v92 (F := Ideal) a0 a1 a2 i = w0 + ∑ b : Fin 64, r9 (Pa a0 b) (Pa a1 b) (Ma a2 b) := by
  rw [val_main_v92_apply]
  refine congrArg₂ (· + ·) rfl ?_
  rw [sum_idx2]
  refine Finset.sum_congr rfl fun b _ => ?_
  unfold r9; rw [Fin.sum_univ_one]
  refine Finset.sum_congr rfl fun t _ => ?_
  rw [val_main_v91_apply, val_main_v88_apply, val_main_v87_apply, v83_ix, v86_ix]; rfl

theorem s10 (i : S_.Idx) : val_main_v89 (F := Ideal) a2 i = w0 + ∑ b : Fin 64, r10 (Ma a2 b) := by
  rw [val_main_v89_apply]
  refine congrArg₂ (· + ·) rfl ?_
  rw [sum_idx2]
  refine Finset.sum_congr rfl fun b _ => ?_
  unfold r10; rw [Fin.sum_univ_one]

end Cert.ReferenceIdeal.RefSums

end
-- ==== Proof.Bridge.lean ====
/-
  The two results are one number.

  The reference combines its eleven sums and the mean band weight exactly as the kernel's last grid point combines its
  totals (the same operations on the same f32 words, the host's quotient, square root and absolute value being the
  kernel's on the extended reals); its three copies of the mask count are one sum. Each of its sums over all of an
  array's indices is the sum over the 64 batch rows of the specification's row sum, as is the kernel's total.
-/
import proofs.«155167_j84593675862632_2_alg».proof.Proof.KernelRun
import proofs.«155167_j84593675862632_2_alg».proof.Proof.RefSums

noncomputable section

open scoped BigOperators

namespace Cert.Bridge

open Idealize.ShloMosaic Idealize.ShloMosaic.TcCoe Idealize.SL.Sem Idealize.ShloMosaic.ValueIdx LossSpec
open Cert.ReferenceIdeal.Read

variable (a0 a1 : (⟨Cert.ReferenceIdeal.S64x4000x80, .f32⟩ : BufTy).Contents (Elt Ideal))
  (a2 : (⟨Cert.ReferenceIdeal.S64x4000, .f32⟩ : BufTy).Contents (Elt Ideal))
  (a3 : (⟨Cert.ReferenceIdeal.S80, .f32⟩ : BufTy).Contents (Elt Ideal))

/-- The reference's eleven sums, in the kernel's order. -/
def refSums (i : Cert.ReferenceIdeal.S_.Idx) : Fin 11 → Ideal .f32 :=
  ![val_main_v8 (F := Ideal) a0 a1 a2 i, val_main_v76 (F := Ideal) a0 a1 a2 a3 i, val_main_v4 (F := Ideal) a2 i,
    val_main_v27 (F := Ideal) a0 a1 a2 i, val_main_v23 (F := Ideal) a2 i, val_main_v48 (F := Ideal) a0 a1 a2 i,
    val_main_v44 (F := Ideal) a2 i, val_main_v59 (F := Ideal) a0 a1 a2 i, val_main_v63 (F := Ideal) a1 a2 i,
    val_main_v92 (F := Ideal) a0 a1 a2 i, val_main_v89 (F := Ideal) a2 i]

/-- The reference's result is the kernel's combination of them and of the reference's mean band weight. -/
theorem ref_combine (i : Cert.ReferenceIdeal.S_.Idx) :
    val_main_v104 (F := Ideal) a0 a1 a2 a3 i
      = Cert.KernelIdeal.Cells.combine (refSums a0 a1 a2 a3 i) (val_main_v79 (F := Ideal) a3 i) := by
  rfl

/-- From arguments that agree, the reference's result is the kernel's. -/
theorem result_eq (m : (ℓ : Loc Cert.KernelIdeal.nD Cert.KernelIdeal.τ Cert.KernelIdeal.sig) → Buf (Elt Ideal) ℓ)
    (c : Dev Cert.KernelIdeal.nD) (i : Cert.ReferenceIdeal.S_.Idx) :
    val_main_v104 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) i
      = Cert.KernelIdeal.Result.total m c := by
  rw [ref_combine]
  unfold Cert.KernelIdeal.Result.total
  refine congrArg₂ Cert.KernelIdeal.Cells.combine (funext fun k => ?_) ?_
  · fin_cases k
    · exact Cert.ReferenceIdeal.RefSums.s0 _ _ _ i
    · exact Cert.ReferenceIdeal.RefSums.s1 _ _ _ _ i
    · exact Cert.ReferenceIdeal.RefSums.s2 _ i
    · exact Cert.ReferenceIdeal.RefSums.s3 _ _ _ i
    · exact Cert.ReferenceIdeal.RefSums.s4 _ i
    · exact Cert.ReferenceIdeal.RefSums.s5 _ _ _ i
    · exact Cert.ReferenceIdeal.RefSums.s6 _ i
    · exact Cert.ReferenceIdeal.RefSums.s7 _ _ _ i
    · exact Cert.ReferenceIdeal.RefSums.s8 _ _ i
    · exact Cert.ReferenceIdeal.RefSums.s9 _ _ _ i
    · exact Cert.ReferenceIdeal.RefSums.s10 _ i
  · rw [eq_ix0 i]; rfl

end Cert.Bridge

end
-- ==== Proof.Claims.lean ====
/-
  The five claims.

  The three frames are the generated ones (the reference's is its generated run with the result dropped). The ideal pass
  rewrote nothing, so the idealized kernel is the kernel's own text. The value claim: the idealized kernel returns the
  combination of the eleven sums over all batch rows of the specification's row sums and of the mean band weight; so
  does the reference, from arguments that agree.
-/
import proofs.«155167_j84593675862632_2_alg».proof.Defs
import proofs.«155167_j84593675862632_2_alg».proof.Proof.Gen.Kernel.Frame
import proofs.«155167_j84593675862632_2_alg».proof.Proof.Gen.KernelIdeal.Frame
import proofs.«155167_j84593675862632_2_alg».proof.Proof.Gen.ReferenceIdeal.Run
import proofs.«155167_j84593675862632_2_alg».proof.Proof.Gen.ReferenceIdeal.Read
import proofs.«155167_j84593675862632_2_alg».proof.Proof.Gen.Pre_finite_inputs
import proofs.«155167_j84593675862632_2_alg».proof.Proof.KernelRun
import proofs.«155167_j84593675862632_2_alg».proof.Proof.Bridge

noncomputable section

namespace Cert.Proof.Claims

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => fun _ => Cert.KernelIdeal.Result.total m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v104_eq, (hagree c).1, (hagree c).2.1, (hagree c).2.2.1, (hagree c).2.2.2]
  funext i
  exact Cert.Bridge.result_eq m c i

end Cert.Proof.Claims

end
-- ==== Proof.lean ====
/-
  The certificate of a masked spectrogram loss: a kernel that walks the 64 batch rows, adds eleven partial sums of each
  row into a scratch accumulator, and at the last row combines the totals into one number, against the same loss written
  with whole-array sums. Proof/Spec.lean states a row's eleven sums; Proof/Cells.lean, Proof/Accum.lean and
  Proof/KernelRun.lean read the kernel's run (what each grid point leaves, the running sums, the result);
  Proof/RowSums.lean and Proof/Blocks.lean identify the body's sums with the specification's on the arguments' rows;
  Proof/RefSums.lean reads the reference's sums; Proof/Bridge.lean joins the two; Proof/Claims.lean states the five
  claims, assembled here behind the witnesses of the programs' stated facts.
-/
import proofs.«155167_j84593675862632_2_alg».proof.Defs
import proofs.«155167_j84593675862632_2_alg».proof.Proof.Gen.Kernel
import proofs.«155167_j84593675862632_2_alg».proof.Proof.Gen.Kernel.Skeleton
import proofs.«155167_j84593675862632_2_alg».proof.Proof.Gen.Kernel.Launch
import proofs.«155167_j84593675862632_2_alg».proof.Proof.Gen.Kernel.Points
import proofs.«155167_j84593675862632_2_alg».proof.Proof.Gen.Kernel.Frame
import proofs.«155167_j84593675862632_2_alg».proof.Proof.Gen.KernelIdeal
import proofs.«155167_j84593675862632_2_alg».proof.Proof.Gen.KernelIdeal.Skeleton
import proofs.«155167_j84593675862632_2_alg».proof.Proof.Gen.KernelIdeal.Launch
import proofs.«155167_j84593675862632_2_alg».proof.Proof.Gen.KernelIdeal.Points
import proofs.«155167_j84593675862632_2_alg».proof.Proof.Gen.KernelIdeal.Frame
import proofs.«155167_j84593675862632_2_alg».proof.Proof.Gen.ReferenceIdeal
import proofs.«155167_j84593675862632_2_alg».proof.Proof.Gen.Pre_finite_inputs
import proofs.«155167_j84593675862632_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
